-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x41 : Shape := ⟨2, ![30000, 41]⟩
abbrev S2x240000 : Shape := ⟨2, ![2, 240000]⟩
abbrev S240000x4 : Shape := ⟨2, ![240000, 4]⟩
abbrev S512x38 : Shape := ⟨2, ![512, 38]⟩
abbrev S512 : Shape := ⟨1, ![512]⟩
abbrev S512x512 : Shape := ⟨2, ![512, 512]⟩
abbrev S_ : Shape := ⟨0, ![]⟩

class Facts : Prop where
  bcast_S_S30000x41 : S_.BroadcastsInDim S30000x41 (![] : Fin 0 → Fin S30000x41.rank)
  reducesTo_S30000x41_S_d0_1 : S30000x41.ReducesTo [0, 1] S_
  h_S_ : 0 < S_.numel
  bcast_S_S240000x4 : S_.BroadcastsInDim S240000x4 (![] : Fin 0 → Fin S240000x4.rank)
  reducesTo_S240000x4_S_d0_1 : S240000x4.ReducesTo [0, 1] S_
  bcast_S_S512x38 : S_.BroadcastsInDim S512x38 (![] : Fin 0 → Fin S512x38.rank)
  reducesTo_S512x38_S_d0_1 : S512x38.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg5 : FVec F S512x512 .f32) (main_arg6 : FVec F S512x512 .f32) (main_arg7 : FVec F S512x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg7
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  main_v33

def fn {F : FTy → Type} [FloatOps F] (main_arg0 : FVec F S30000x41 .f32) (main_arg1 : IVec S2x240000 32) (main_arg2 : FVec F S240000x4 .f32) (main_arg3 : FVec F S512x38 .f32) (main_arg4 : FVec F S512 .f32) (main_arg5 : FVec F S512x512 .f32) (main_arg6 : FVec F S512x512 .f32) (main_arg7 : FVec F S512x512 .f32) : IVec S_ 1 :=
  let main_v0 : FVec F S30000x41 .f32 := Host.absf main_arg0
  let main_cst : FVec F S_ .f32 := constant S_ .f32 0x7F800000#32
  let main_v1 : FVec F S30000x41 .f32 := broadcastInDim S30000x41 ![] bcast_S_S30000x41 main_cst
  let main_v2 : IVec S30000x41 1 := cmpf .olt main_v0 main_v1
  let main_c : IVec S_ 1 := constantI S_ 1 1#1
  let main_v3 : IVec S_ 1 := (fun x v => Host.reduce IntOp.andi x v reducesTo_S30000x41_S_d0_1 h_S_) main_v2 main_c
  let main_v4 : FVec F S240000x4 .f32 := Host.absf main_arg2
  let main_cst_0 : FVec F S_ .f32 := constant S_ .f32 0x7F800000#32
  let main_v5 : FVec F S240000x4 .f32 := broadcastInDim S240000x4 ![] bcast_S_S240000x4 main_cst_0
  let main_v6 : IVec S240000x4 1 := cmpf .olt main_v4 main_v5
  let main_c_1 : IVec S_ 1 := constantI S_ 1 1#1
  let main_v7 : IVec S_ 1 := (fun x v => Host.reduce IntOp.andi x v reducesTo_S240000x4_S_d0_1 h_S_) main_v6 main_c_1
  let main_v8 : IVec S_ 1 := andi main_v3 main_v7
  let main_v9 : FVec F S512x38 .f32 := Host.absf main_arg3
  let main_cst_2 : FVec F S_ .f32 := constant S_ .f32 0x7F800000#32
  let main_v10 : FVec F S512x38 .f32 := broadcastInDim S512x38 ![] bcast_S_S512x38 main_cst_2
  let main_v11 : IVec S512x38 1 := cmpf .olt main_v9 main_v10
  let main_c_3 : IVec S_ 1 := constantI S_ 1 1#1
  let main_v12 : IVec S_ 1 := (fun x v => Host.reduce IntOp.andi x v reducesTo_S512x38_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S30000x41 : Shape := ⟨2, ![30000, 41]⟩
abbrev S2x240000 : Shape := ⟨2, ![2, 240000]⟩
abbrev S240000x4 : Shape := ⟨2, ![240000, 4]⟩
abbrev S512x38 : Shape := ⟨2, ![512, 38]⟩
abbrev S512 : Shape := ⟨1, ![512]⟩
abbrev S512x512 : Shape := ⟨2, ![512, 512]⟩
abbrev S1x240000 : Shape := ⟨2, ![1, 240000]⟩
abbrev S240000 : Shape := ⟨1, ![240000]⟩
abbrev S240000x1 : Shape := ⟨2, ![240000, 1]⟩
abbrev S_ : Shape := ⟨0, ![]⟩
abbrev S30000x38 : Shape := ⟨2, ![30000, 38]⟩
abbrev S38x512 : Shape := ⟨2, ![38, 512]⟩
abbrev S1x512 : Shape := ⟨2, ![1, 512]⟩
abbrev S30000x512 : Shape := ⟨2, ![30000, 512]⟩
abbrev S1000x38 : Shape := ⟨2, ![1000, 38]⟩
abbrev S1000x512 : Shape := ⟨2, ![1000, 512]⟩
abbrev S30000 : Shape := ⟨1, ![30000]⟩
abbrev S30000x1 : Shape := ⟨2, ![30000, 1]⟩
abbrev S240000x512 : Shape := ⟨2, ![240000, 512]⟩
abbrev S1000x1 : Shape := ⟨2, ![1000, 1]⟩

abbrev nBuf : Space → Nat
  | .hbm => 108
  | .vmem => 33
  | .smem => 0
  | _ => 0

abbrev bufTy : (tb : Table) → Fin (tcTables nBuf tb) → BufTy
  | .hbm, ⟨0, _⟩ => ⟨S30000x41, .f32⟩
  | .hbm, ⟨1, _⟩ => ⟨S2x240000, .i32⟩
  | .hbm, ⟨2, _⟩ => ⟨S240000x4, .f32⟩
  | .hbm, ⟨3, _⟩ => ⟨S512x38, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S1x240000, .i32⟩
  | .hbm, ⟨9, _⟩ => ⟨S240000, .i32⟩
  | .hbm, ⟨10, _⟩ => ⟨S1x240000, .i32⟩
  | .hbm, ⟨11, _⟩ => ⟨S240000, .i32⟩
  | .hbm, ⟨12, _⟩ => ⟨S240000x1, .f32⟩
  | .hbm, ⟨13, _⟩ => ⟨S240000, .f32⟩
  | .hbm, ⟨14, _⟩ => ⟨S_, .f32⟩
  | .hbm, ⟨15, _⟩ => ⟨S240000, .f32⟩
  | .hbm, ⟨16, _⟩ => ⟨S240000, .f32⟩
  | .hbm, ⟨17, _⟩ => ⟨S30000x38, .f32⟩
  | .hbm, ⟨18, _⟩ => ⟨S38x512, .f32⟩
  | .hbm, ⟨19, _⟩ => ⟨S38x512, .bf16⟩
  | .hbm, ⟨20, _⟩ => ⟨S1x512, .f32⟩
  | .hbm, ⟨21, _⟩ => ⟨S30000x512, .f32⟩
  | .hbm, ⟨22, _⟩ => ⟨S_, .f32⟩
  | .hbm, ⟨23, _⟩ => ⟨S30000, .f32⟩
  | .hbm, ⟨24, _⟩ => ⟨S240000x1, .i32⟩
  | .hbm, ⟨25, _⟩ => ⟨S30000, .f32⟩
  | .hbm, ⟨26, _⟩ => ⟨S_, .f32⟩
  | .hbm, ⟨27, _⟩ => ⟨S30000, .f32⟩
  | .hbm, ⟨28, _⟩ => ⟨S30000, .i1⟩
  | .hbm, ⟨29, _⟩ => ⟨S_, .f32⟩
  | .hbm, ⟨30, _⟩ => ⟨S_, .f32⟩
  | .hbm, ⟨31, _⟩ => ⟨S30000, .f32⟩
  | .hbm, ⟨32, _⟩ => ⟨S30000, .f32⟩
  | .hbm, ⟨33, _⟩ => ⟨S_, .f32⟩
  | .hbm, ⟨34, _⟩ => ⟨S30000, .f32⟩
  | .hbm, ⟨35, _⟩ => ⟨S30000, .i1⟩
  | .hbm, ⟨36, _⟩ => ⟨S30000, .f32⟩
  | .hbm, ⟨37, _⟩ => ⟨S_, .f32⟩
  | .hbm, ⟨38, _⟩ => ⟨S_, .f32⟩
  | .hbm, ⟨39, _⟩ => ⟨S30000, .f32⟩
  | .hbm, ⟨40, _⟩ => ⟨S30000, .f32⟩
  | .hbm, ⟨41, _⟩ => ⟨S30000x1, .f32⟩
  | .hbm, ⟨42, _⟩ => ⟨S512x512, .bf16⟩
  | .hbm, ⟨43, _⟩ => ⟨S512x512, .bf16⟩
  | .hbm, ⟨44, _⟩ => ⟨S512x512, .bf16⟩
  | .hbm, ⟨45, _⟩ => ⟨S30000x512, .f32⟩
  | .hbm, ⟨46, _⟩ => ⟨S30000x512, .f32⟩
  | .hbm, ⟨47, _⟩ => ⟨S30000x512, .bf16⟩
  | .hbm, ⟨48, _⟩ => ⟨S_, .i32⟩
  | .hbm, ⟨49, _⟩ => ⟨S240000, .i32⟩
  | .hbm, ⟨50, _⟩ => ⟨S240000, .i1⟩
  | .hbm, ⟨51, _⟩ => ⟨S_, .i32⟩
  | .hbm, ⟨52, _⟩ => ⟨S240000, .i32⟩
  | .hbm, ⟨53, _⟩ => ⟨S240000, .i32⟩
  | .hbm, ⟨54, _⟩ => ⟨S240000, .i32⟩
  | .hbm, ⟨55, _⟩ => ⟨S240000x1, .i32⟩
  | .hbm, ⟨56, _⟩ => ⟨S240000x512, .bf16⟩
  | .hbm, ⟨57, _⟩ => ⟨S240000x512, .f32⟩
  | .hbm, ⟨58, _⟩ => ⟨S240000x1, .f32⟩
  | .hbm, ⟨59, _⟩ => ⟨S240000x512, .f32⟩
  | .hbm, ⟨60, _⟩ => ⟨S240000x512, .f32⟩
  | .hbm, ⟨61, _⟩ => ⟨S_, .f32⟩
  | .hbm, ⟨62, _⟩ => ⟨S30000x512, .f32⟩
  | .hbm, ⟨63, _⟩ => ⟨S240000x1, .i32⟩
  | .hbm, ⟨64, _⟩ => ⟨S30000x512, .f32⟩
  | .hbm, ⟨65, _⟩ => ⟨S30000x512, .f32⟩
  | .hbm, ⟨66, _⟩ => ⟨S30000x512, .f32⟩
  | .hbm, ⟨67, _⟩ => ⟨S30000x512, .f32⟩
  | .hbm, ⟨68, _⟩ => ⟨S30000x512, .bf16⟩
  | .hbm, ⟨69, _⟩ => ⟨S_, .i32⟩
  | .hbm, ⟨70, _⟩ => ⟨S240000, .i32⟩
  | .hbm, ⟨71, _⟩ => ⟨S240000, .i1⟩
  | .hbm, ⟨72, _⟩ => ⟨S_, .i32⟩
  | .hbm, ⟨73, _⟩ => ⟨S240000, .i32⟩
  | .hbm, ⟨74, _⟩ => ⟨S240000, .i32⟩
  | .hbm, ⟨75, _⟩ => ⟨S240000, .i32⟩
  | .hbm, ⟨76, _⟩ => ⟨S240000x1, .i32⟩
  | .hbm, ⟨77, _⟩ => ⟨S240000x512, .bf16⟩
  | .hbm, ⟨78, _⟩ => ⟨S240000x512, .f32⟩
  | .hbm, ⟨79, _⟩ => ⟨S240000x1, .f32⟩
  | .hbm, ⟨80, _⟩ => ⟨S240000x512, .f32⟩
  | .hbm, ⟨81, _⟩ => ⟨S240000x512, .f32⟩
  | .hbm, ⟨82, _⟩ => ⟨S_, .f32⟩
  | .hbm, ⟨83, _⟩ => ⟨S30000x512, .f32⟩
  | .hbm, ⟨84, _⟩ => ⟨S240000x1, .i32⟩
  | .hbm, ⟨85, _⟩ => ⟨S30000x512, .f32⟩
  | .hbm, ⟨86, _⟩ => ⟨S30000x512, .f32⟩
  | .hbm, ⟨87, _⟩ => ⟨S30000x512, .f32⟩
  | .hbm, ⟨88, _⟩ => ⟨S30000x512, .f32⟩
  | .hbm, ⟨89, _⟩ => ⟨S30000x512, .bf16⟩
  | .hbm, ⟨90, _⟩ => ⟨S_, .i32⟩
  | .hbm, ⟨91, _⟩ => ⟨S240000, .i32⟩
  | .hbm, ⟨92, _⟩ => ⟨S240000, .i1⟩
  | .hbm, ⟨93, _⟩ => ⟨S_, .i32⟩
  | .hbm, ⟨94, _⟩ => ⟨S240000, .i32⟩
  | .hbm, ⟨95, _⟩ => ⟨S240000, .i32⟩
  | .hbm, ⟨96, _⟩ => ⟨S240000, .i32⟩
  | .hbm, ⟨97, _⟩ => ⟨S240000x1, .i32⟩
  | .hbm, ⟨98, _⟩ => ⟨S240000x512, .bf16⟩
  | .hbm, ⟨99, _⟩ => ⟨S240000x512, .f32⟩
  | .hbm, ⟨100, _⟩ => ⟨S240000x1, .f32⟩
  | .hbm, ⟨101, _⟩ => ⟨S240000x512, .f32⟩
  | .hbm, ⟨102, _⟩ => ⟨S240000x512, .f32⟩
  | .hbm, ⟨103, _⟩ => ⟨S_, .f32⟩
  | .hbm, ⟨104, _⟩ => ⟨S30000x512, .f32⟩
  | .hbm, ⟨105, _⟩ => ⟨S240000x1, .i32⟩
  | .hbm, ⟨106, _⟩ => ⟨S30000x512, .f32⟩
  | .hbm, ⟨107, _⟩ => ⟨S30000x512, .f32⟩
  | .local _ .vmem, ⟨0, _⟩ => ⟨S1000x38, .f32⟩
  | .local _ .vmem, ⟨1, _⟩ => ⟨S1000x38, .f32⟩
  | .local _ .vmem, ⟨2, _⟩ => ⟨S38x512, .bf16⟩
  | .local _ .vmem, ⟨3, _⟩ => ⟨S1x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x1, .f32⟩
  | .local _ .vmem, ⟨9, _⟩ => ⟨S1000x1, .f32⟩
  | .local _ .vmem, ⟨10, _⟩ => ⟨S1000x512, .f32⟩
  | .local _ .vmem, ⟨11, _⟩ => ⟨S1000x512, .f32⟩
  | .local _ .vmem, ⟨12, _⟩ => ⟨S512x512, .bf16⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1000x512, .f32⟩
  | .local _ .vmem, ⟨17, _⟩ => ⟨S1000x1, .f32⟩
  | .local _ .vmem, ⟨18, _⟩ => ⟨S1000x1, .f32⟩
  | .local _ .vmem, ⟨19, _⟩ => ⟨S1000x512, .f32⟩
  | .local _ .vmem, ⟨20, _⟩ => ⟨S1000x512, .f32⟩
  | .local _ .vmem, ⟨21, _⟩ => ⟨S512x512, .bf16⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1000x512, .f32⟩
  | .local _ .vmem, ⟨26, _⟩ => ⟨S1000x1, .f32⟩
  | .local _ .vmem, ⟨27, _⟩ => ⟨S1000x1, .f32⟩
  | .local _ .vmem, ⟨28, _⟩ => ⟨S1000x512, .f32⟩
  | .local _ .vmem, ⟨29, _⟩ => ⟨S1000x512, .f32⟩
  | .local _ .vmem, ⟨30, _⟩ => ⟨S512x512, .bf16⟩
  | .local _ .vmem, ⟨31, _⟩ => ⟨S1000x512, .f32⟩
  | .local _ .vmem, ⟨32, _⟩ => ⟨S1000x512, .f32⟩
  | _, _ => ⟨S30000x41, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_10 : Ref sig .tc := ⟨.hbm, 90, rfl⟩
abbrev main_v66 : Ref sig .tc := ⟨.hbm, 91, rfl⟩
abbrev main_v67 : Ref sig .tc := ⟨.hbm, 92, rfl⟩
abbrev main_c_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem4_1 : DmaSem sig := 32

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x38 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S38x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![30], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x240000_S1x240000_0_0 : S2x240000.Slices ![0, 0] S1x240000
  shapeCasts_S1x240000_S240000 : S1x240000.ShapeCasts S240000
  slices_S2x240000_S1x240000_1_0 : S2x240000.Slices ![1, 0] S1x240000
  slices_S240000x4_S240000x1_0_3 : S240000x4.Slices ![0, 3] S240000x1
  shapeCasts_S240000x1_S240000 : S240000x1.ShapeCasts S240000
  bcast_S_S240000 : S_.BroadcastsInDim S240000 (![] : Fin 0 → Fin S240000.rank)
  slices_S30000x41_S30000x38_0_0 : S30000x41.Slices ![0, 0] S30000x38
  transposes_S512x38_S38x512_1_0 : S512x38.Transposes [1, 0] S38x512
  bitsLt_bf16_f32 : FTy.bits .bf16 < FTy.bits .f32
  shapeCasts_S512_S1x512 : S512.ShapeCasts S1x512
  inb_S1000x38_S1000x38_0_0 : ∀ a, (![0, 0] : Fin 2 → Nat) a + S1000x38.size a ≤ S1000x38.size a
  h_S1000x38 : 0 < S1000x38.numel
  shapeCasts_S1000x38_S1000x38 : S1000x38.ShapeCasts S1000x38
  inb_S38x512_S38x512_0_0 : ∀ a, (![0, 0] : Fin 2 → Nat) a + S38x512.size a ≤ S38x512.size a
  h_S38x512 : 0 < S38x512.numel
  shapeCasts_S38x512_S38x512 : S38x512.ShapeCasts S38x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S1000x512_S1000x512_0_0 : ∀ a, (![0, 0] : Fin 2 → Nat) a + S1000x512.size a ≤ S1000x512.size a
  h_S1000x512 : 0 < S1000x512.numel
  bcast_S_S30000 : S_.BroadcastsInDim S30000 (![] : Fin 0 → Fin S30000.rank)
  bcast_S240000_S240000x1_0 : S240000.BroadcastsInDim S240000x1 (![0] : Fin 1 → Fin S240000x1.rank)
  shapeCasts_S30000_S30000x1 : S30000.ShapeCasts S30000x1
  bcast_S30000x1_S30000x512_0_1 : S30000x1.BroadcastsInDim S30000x512 (![0, 1] : Fin 2 → Fin S30000x512.rank)
  bcast_S240000x1_S240000x512_0_1 : S240000x1.BroadcastsInDim S240000x512 (![0, 1] : Fin 2 → Fin S240000x512.rank)
  bcast_S_S30000x512 : S_.BroadcastsInDim S30000x512 (![] : Fin 0 → Fin S30000x512.rank)
  shapeCasts_S1000x512_S1000x512 : S1000x512.ShapeCasts S1000x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1000x38_S38x512_S1000x512_1_0_0_1_n_n_wf : DotDims.WF S1000x38 S38x512 S1000x512 [1] [0] [0] [1] [] []
  scatter_S30000_S240000x1_S240000_n_0_0_1_wf : ScatterDims.WF S30000 S240000x1 S240000 [] [0] [0] 1
  gather_S30000x512_S240000x1_S240000x512_1_0_n_n_0_1_1512_wf : GatherDims.WF S30000x512 S240000x1 S240000x512 [1] [0] [] [0] [] 1 ![1, 512]
  scatter_S30000x512_S240000x1_S240000x512_1_0_0_1_wf : ScatterDims.WF S30000x512 S240000x1 S240000x512 [1] [0] [0] 1
  dot_S1000x512_S512x512_S1000x512_1_0_0_1_n_n_wf : DotDims.WF S1000x512 S512x512 S1000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x38.size a ≤ S30000x38.size a
  hwx0_0 : ∀ i : grid0.Coords, EltTy.bits .f32 = 32 ∨ (Rect.block (s := S30000x38) S1000x38.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S38x512.size a ≤ S38x512.size a
  hwx0_1 : ∀ i : grid0.Coords, EltTy.bits .bf16 = 32 ∨ (Rect.block (s := S38x512) S38x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S30000x512.size a
  hwx0_3 : ∀ i : grid0.Coords, EltTy.bits .f32 = 32 ∨ (Rect.block (s := S30000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S30000x512.size a
  hwx1_0 : ∀ i : grid1.Coords, EltTy.bits .f32 = 32 ∨ (Rect.block (s := S30000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S30000x1.size a
  hwx1_1 : ∀ i : grid1.Coords, EltTy.bits .f32 = 32 ∨ (Rect.block (s := S30000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S30000x512.size a
  hwx1_2 : ∀ i : grid1.Coords, EltTy.bits .f32 = 32 ∨ (Rect.block (s := S30000x512) S1000x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S30000x512.size a
  hwx1_4 : ∀ i : grid1.Coords, EltTy.bits .f32 = 32 ∨ (Rect.block (s := S30000x512) S1000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S30000x512.size a
  hwx2_0 : ∀ i : grid2.Coords, EltTy.bits .f32 = 32 ∨ (Rect.block (s := S30000x512) S1000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S30000x1.size a
  hwx2_1 : ∀ i : grid2.Coords, EltTy.bits .f32 = 32 ∨ (Rect.block (s := S30000x1) S1000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x512.size a ≤ S30000x512.size a
  hwx2_2 : ∀ i : grid2.Coords, EltTy.bits .f32 = 32 ∨ (Rect.block (s := S30000x512) S1000x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x512.size a ≤ S30000x512.size a
  hwx2_4 : ∀ i : grid2.Coords, EltTy.bits .f32 = 32 ∨ (Rect.block (s := S30000x512) S1000x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S30000x512.size a
  hwx3_0 : ∀ i : grid3.Coords, EltTy.bits .f32 = 32 ∨ (Rect.block (s := S30000x512) S1000x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S30000x1.size a
  hwx3_1 : ∀ i : grid3.Coords, EltTy.bits .f32 = 32 ∨ (Rect.block (s := S30000x1) S1000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x512.size a ≤ S30000x512.size a
  hwx3_2 : ∀ i : grid3.Coords, EltTy.bits .f32 = 32 ∨ (Rect.block (s := S30000x512) S1000x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S512x512.size a
  hwx3_3 : ∀ i : grid3.Coords, EltTy.bits .bf16 = 32 ∨ (Rect.block (s := S512x512) S512x512.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x512.size a ≤ S30000x512.size a
  hwx3_4 : ∀ i : grid3.Coords, EltTy.bits .f32 = 32 ∨ (Rect.block (s := S30000x512) S1000x512.size (cc3_transform_4 i) (hinb3_4 i)).WholeWords (EltTy.packing .f32)

variable [Facts₀]

def dot_S1000x38_S38x512_S1000x512_1_0_0_1_n_n : DotDims S1000x38 S38x512 S1000x512 where
  lhsContracting := [1]
  rhsContracting := [0]
  lhsNonContracting := [0]
  rhsNonContracting := [1]
  lhsBatch := []
  rhsBatch := []
  wf := dot_S1000x38_S38x512_S1000x512_1_0_0_1_n_n_wf
def scatter_S30000_S240000x1_S240000_n_0_0_1 : ScatterDims S30000 S240000x1 S240000 where
  updateWindowDims := []
  insertedWindowDims := [0]
  scatterDimsToOperandDims := [0]
  indexVectorDim := 1
  wf := scatter_S30000_S240000x1_S240000_n_0_0_1_wf
def gather_S30000x512_S240000x1_S240000x512_1_0_n_n_0_1_1512 : GatherDims S30000x512 S240000x1 S240000x512 where
  offsetDims := [1]
  collapsedSliceDims := [0]
  operandBatchingDims := []
  startIndicesBatchingDims := []
  startIndexMap := [0]
  indexVectorDim := 1
  sliceSizes := ![1, 512]
  wf := gather_S30000x512_S240000x1_S240000x512_1_0_n_n_0_1_1512_wf
def scatter_S30000x512_S240000x1_S240000x512_1_0_0_1 : ScatterDims S30000x512 S240000x1 S240000x512 where
  updateWindowDims := [1]
  insertedWindowDims := [0]
  scatterDimsToOperandDims := [0]
  indexVectorDim := 1
  wf := scatter_S30000x512_S240000x1_S240000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf

abbrev win0_0 : Pipeline.Window sig grid0 :=
  Pipeline.Window.ofSpec (Memref.whole main_v8) S1000x38.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S38x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v61) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1000x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v79) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1000x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v26) S512x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1000x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S30000x41 : Shape := ⟨2, ![30000, 41]⟩
abbrev S2x240000 : Shape := ⟨2, ![2, 240000]⟩
abbrev S240000x4 : Shape := ⟨2, ![240000, 4]⟩
abbrev S512x38 : Shape := ⟨2, ![512, 38]⟩
abbrev S512 : Shape := ⟨1, ![512]⟩
abbrev S512x512 : Shape := ⟨2, ![512, 512]⟩
abbrev S1x240000 : Shape := ⟨2, ![1, 240000]⟩
abbrev S240000 : Shape := ⟨1, ![240000]⟩
abbrev S240000x1 : Shape := ⟨2, ![240000, 1]⟩
abbrev S_ : Shape := ⟨0, ![]⟩
abbrev S30000x38 : Shape := ⟨2, ![30000, 38]⟩
abbrev S38x512 : Shape := ⟨2, ![38, 512]⟩
abbrev S30000x512 : Shape := ⟨2, ![30000, 512]⟩
abbrev S1x512 : Shape := ⟨2, ![1, 512]⟩
abbrev S30000 : Shape := ⟨1, ![30000]⟩
abbrev S240000x512 : Shape := ⟨2, ![240000, 512]⟩

abbrev nBuf : Space → Nat
  | .hbm => 164
  | .vmem => 0
  | .smem => 0
  | _ => 0

abbrev hbmTy0_0 (i : Nat) : BufTy := match i % 128 with
  | 0 => ⟨S30000x41, .f32⟩
  | 1 => ⟨S2x240000, .i32⟩
  | 2 => ⟨S240000x4, .f32⟩
  | 3 => ⟨S512x38, .f32⟩
  | 4 => ⟨S512, .f32⟩
  | 5 => ⟨S512x512, .f32⟩
  | 6 => ⟨S512x512, .f32⟩
  | 7 => ⟨S512x512, .f32⟩
  | 8 => ⟨S1x240000, .i32⟩
  | 9 => ⟨S240000, .i32⟩
  | 10 => ⟨S1x240000, .i32⟩
  | 11 => ⟨S240000, .i32⟩
  | 12 => ⟨S240000x1, .f32⟩
  | 13 => ⟨S240000, .f32⟩
  | 14 => ⟨S_, .f32⟩
  | 15 => ⟨S240000, .f32⟩
  | 16 => ⟨S240000, .f32⟩
  | 17 => ⟨S30000x38, .f32⟩
  | 18 => ⟨S38x512, .f32⟩
  | 19 => ⟨S30000x512, .f32⟩
  | 20 => ⟨S1x512, .f32⟩
  | 21 => ⟨S30000x512, .f32⟩
  | 22 => ⟨S30000x512, .f32⟩
  | 23 => ⟨S_, .f32⟩
  | 24 => ⟨S30000, .f32⟩
  | 25 => ⟨S240000x1, .i32⟩
  | 26 => ⟨S30000, .f32⟩
  | 27 => ⟨S_, .f32⟩
  | 28 => ⟨S30000, .f32⟩
  | 29 => ⟨S30000, .i1⟩
  | 30 => ⟨S_, .f32⟩
  | 31 => ⟨S_, .f32⟩
  | 32 => ⟨S30000, .f32⟩
  | 33 => ⟨S30000, .f32⟩
  | 34 => ⟨S_, .f32⟩
  | 35 => ⟨S30000, .f32⟩
  | 36 => ⟨S30000, .i1⟩
  | 37 => ⟨S30000, .f32⟩
  | 38 => ⟨S_, .f32⟩
  | 39 => ⟨S_, .f32⟩
  | 40 => ⟨S30000, .f32⟩
  | 41 => ⟨S30000, .f32⟩
  | 42 => ⟨S_, .i32⟩
  | 43 => ⟨S240000, .i32⟩
  | 44 => ⟨S240000, .i1⟩
  | 45 => ⟨S_, .i32⟩
  | 46 => ⟨S240000, .i32⟩
  | 47 => ⟨S240000, .i32⟩
  | 48 => ⟨S240000, .i32⟩
  | 49 => ⟨S240000x1, .i32⟩
  | 50 => ⟨S240000, .f32⟩
  | 51 => ⟨S240000, .f32⟩
  | 52 => ⟨S_, .i32⟩
  | 53 => ⟨S240000, .i32⟩
  | 54 => ⟨S240000, .i1⟩
  | 55 => ⟨S_, .i32⟩
  | 56 => ⟨S240000, .i32⟩
  | 57 => ⟨S240000, .i32⟩
  | 58 => ⟨S240000, .i32⟩
  | 59 => ⟨S240000x1, .i32⟩
  | 60 => ⟨S240000, .f32⟩
  | 61 => ⟨S240000, .f32⟩
  | 62 => ⟨S_, .i32⟩
  | 63 => ⟨S240000, .i32⟩
  | 64 => ⟨S240000, .i1⟩
  | 65 => ⟨S_, .i32⟩
  | 66 => ⟨S240000, .i32⟩
  | 67 => ⟨S240000, .i32⟩
  | 68 => ⟨S240000, .i32⟩
  | 69 => ⟨S240000x1, .i32⟩
  | 70 => ⟨S240000x512, .f32⟩
  | 71 => ⟨S240000x1, .f32⟩
  | 72 => ⟨S240000x512, .f32⟩
  | 73 => ⟨S240000x512, .f32⟩
  | 74 => ⟨S_, .f32⟩
  | 75 => ⟨S30000x512, .f32⟩
  | 76 => ⟨S240000x1, .i32⟩
  | 77 => ⟨S30000x512, .f32⟩
  | 78 => ⟨S_, .f32⟩
  | 79 => ⟨S30000x512, .f32⟩
  | 80 => ⟨S30000x512, .f32⟩
  | 81 => ⟨S_, .f32⟩
  | 82 => ⟨S30000x512, .f32⟩
  | 83 => ⟨S30000x512, .f32⟩
  | 84 => ⟨S30000x512, .f32⟩
  | 85 => ⟨S_, .f32⟩
  | 86 => ⟨S30000x512, .f32⟩
  | 87 => ⟨S30000x512, .f32⟩
  | 88 => ⟨S30000x512, .f32⟩
  | 89 => ⟨S_, .f32⟩
  | 90 => ⟨S30000x512, .f32⟩
  | 91 => ⟨S30000x512, .f32⟩
  | 92 => ⟨S30000x512, .f32⟩
  | 93 => ⟨S_, .f32⟩
  | 94 => ⟨S30000x512, .f32⟩
  | 95 => ⟨S30000x512, .f32⟩
  | 96 => ⟨S_, .i32⟩
  | 97 => ⟨S240000, .i32⟩
  | 98 => ⟨S240000, .i1⟩
  | 99 => ⟨S_, .i32⟩
  | 100 => ⟨S240000, .i32⟩
  | 101 => ⟨S240000, .i32⟩
  | 102 => ⟨S240000, .i32⟩
  | 103 => ⟨S240000x1, .i32⟩
  | 104 => ⟨S240000x512, .f32⟩
  | 105 => ⟨S240000x1, .f32⟩
  | 106 => ⟨S240000x512, .f32⟩
  | 107 => ⟨S240000x512, .f32⟩
  | 108 => ⟨S_, .f32⟩
  | 109 => ⟨S30000x512, .f32⟩
  | 110 => ⟨S240000x1, .i32⟩
  | 111 => ⟨S30000x512, .f32⟩
  | 112 => ⟨S_, .f32⟩
  | 113 => ⟨S30000x512, .f32⟩
  | 114 => ⟨S30000x512, .f32⟩
  | 115 => ⟨S_, .f32⟩
  | 116 => ⟨S30000x512, .f32⟩
  | 117 => ⟨S30000x512, .f32⟩
  | 118 => ⟨S30000x512, .f32⟩
  | 119 => ⟨S_, .f32⟩
  | 120 => ⟨S30000x512, .f32⟩
  | 121 => ⟨S30000x512, .f32⟩
  | 122 => ⟨S30000x512, .f32⟩
  | 123 => ⟨S_, .f32⟩
  | 124 => ⟨S30000x512, .f32⟩
  | 125 => ⟨S30000x512, .f32⟩
  | 126 => ⟨S30000x512, .f32⟩
  | 127 => ⟨S_, .f32⟩
  | _ => ⟨S30000x41, .f32⟩

abbrev hbmTy0_1 (i : Nat) : BufTy := match i % 128 with
  | 0 => ⟨S30000x512, .f32⟩
  | 1 => ⟨S30000x512, .f32⟩
  | 2 => ⟨S_, .i32⟩
  | 3 => ⟨S240000, .i32⟩
  | 4 => ⟨S240000, .i1⟩
  | 5 => ⟨S_, .i32⟩
  | 6 => ⟨S240000, .i32⟩
  | 7 => ⟨S240000, .i32⟩
  | 8 => ⟨S240000, .i32⟩
  | 9 => ⟨S240000x1, .i32⟩
  | 10 => ⟨S240000x512, .f32⟩
  | 11 => ⟨S240000x1, .f32⟩
  | 12 => ⟨S240000x512, .f32⟩
  | 13 => ⟨S240000x512, .f32⟩
  | 14 => ⟨S_, .f32⟩
  | 15 => ⟨S30000x512, .f32⟩
  | 16 => ⟨S240000x1, .i32⟩
  | 17 => ⟨S30000x512, .f32⟩
  | 18 => ⟨S_, .f32⟩
  | 19 => ⟨S30000x512, .f32⟩
  | 20 => ⟨S30000x512, .f32⟩
  | 21 => ⟨S_, .f32⟩
  | 22 => ⟨S30000x512, .f32⟩
  | 23 => ⟨S30000x512, .f32⟩
  | 24 => ⟨S30000x512, .f32⟩
  | 25 => ⟨S_, .f32⟩
  | 26 => ⟨S30000x512, .f32⟩
  | 27 => ⟨S30000x512, .f32⟩
  | 28 => ⟨S30000x512, .f32⟩
  | 29 => ⟨S_, .f32⟩
  | 30 => ⟨S30000x512, .f32⟩
  | 31 => ⟨S30000x512, .f32⟩
  | 32 => ⟨S30000x512, .f32⟩
  | 33 => ⟨S_, .f32⟩
  | 34 => ⟨S30000x512, .f32⟩
  | 35 => ⟨S30000x512, .f32⟩
  | _ => ⟨S30000x41, .f32⟩

abbrev hbmTy (i : Nat) : BufTy := match i / 128 with
  | 0 => hbmTy0_0 i
  | 1 => hbmTy0_1 i
  | _ => ⟨S30000x41, .f32⟩

abbrev bufTy : (tb : Table) → Fin (tcTables nBuf tb) → BufTy
  | .hbm, ⟨i, _⟩ => hbmTy i
  | _, _ => ⟨S30000x41, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v23 : Ref sig .tc := ⟨.hbm, 41, rfl⟩
abbrev main_c : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call2_cst : Ref sig .tc := ⟨.hbm, 93, rfl⟩
abbrev main_call2_v0 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_18 : Ref sig .tc := ⟨.hbm, 112, rfl⟩
abbrev main_v78 : Ref sig .tc := ⟨.hbm, 113, rfl⟩
abbrev main_v79 : Ref sig .tc := ⟨.hbm, 114, rfl⟩
abbrev main_cst_19 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_call3_cst : Ref sig .tc := ⟨.hbm, 127, rfl⟩
abbrev main_call3_v0 : Ref sig .tc := ⟨.hbm, 128, rfl⟩
abbrev main_v89 : Ref sig .tc := ⟨.hbm, 129, rfl⟩
abbrev main_c_22 : Ref sig .tc := ⟨.hbm, 130, rfl⟩
abbrev main_v90 : Ref sig .tc := ⟨.hbm, 131, rfl⟩
abbrev main_v91 : Ref sig .tc := ⟨.hbm, 132, rfl⟩
abbrev main_c_23 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_25 : Ref sig .tc := ⟨.hbm, 146, rfl⟩
abbrev main_v103 : Ref sig .tc := ⟨.hbm, 147, rfl⟩
abbrev main_v104 : Ref sig .tc := ⟨.hbm, 148, rfl⟩
abbrev main_cst_26 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_27 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_cst_28 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_call4_cst : Ref sig .tc := ⟨.hbm, 161, rfl⟩
abbrev main_call4_v0 : Ref sig .tc := ⟨.hbm, 162, rfl⟩
abbrev main_v114 : Ref sig .tc := ⟨.hbm, 163, rfl⟩

abbrev nD : Nat := 1
abbrev τ : Topo := Topo.v7x

variable {F : FTy → Type} [FloatOps F]

class Facts₀ : Prop where
  slices_S2x240000_S1x240000_0_0 : S2x240000.Slices ![0, 0] S1x240000
  shapeCasts_S1x240000_S240000 : S1x240000.ShapeCasts S240000
  slices_S2x240000_S1x240000_1_0 : S2x240000.Slices ![1, 0] S1x240000
  slices_S240000x4_S240000x1_0_3 : S240000x4.Slices ![0, 3] S240000x1
  shapeCasts_S240000x1_S240000 : S240000x1.ShapeCasts S240000
  bcast_S_S240000 : S_.BroadcastsInDim S240000 (![] : Fin 0 → Fin S240000.rank)
  slices_S30000x41_S30000x38_0_0 : S30000x41.Slices ![0, 0] S30000x38
  transposes_S512x38_S38x512_1_0 : S512x38.Transposes [1, 0] S38x512
  bcast_S512_S1x512_1 : S512.BroadcastsInDim S1x512 (![1] : Fin 1 → Fin S1x512.rank)
  bcast_S1x512_S30000x512_0_1 : S1x512.BroadcastsInDim S30000x512 (![0, 1] : Fin 2 → Fin S30000x512.rank)
  bcast_S_S30000 : S_.BroadcastsInDim S30000 (![] : Fin 0 → Fin S30000.rank)
  bcast_S240000_S240000x1_0 : S240000.BroadcastsInDim S240000x1 (![0] : Fin 1 → Fin S240000x1.rank)
  bcast_S240000x1_S240000x512_0_1 : S240000x1.BroadcastsInDim S240000x512 (![0, 1] : Fin 2 → Fin S240000x512.rank)
  bcast_S_S30000x512 : S_.BroadcastsInDim S30000x512 (![] : Fin 0 → Fin S30000x512.rank)
  dot_S30000x38_S38x512_S30000x512_1_0_0_1_n_n_wf : DotDims.WF S30000x38 S38x512 S30000x512 [1] [0] [0] [1] [] []
  scatter_S30000_S240000x1_S240000_n_0_0_1_wf : ScatterDims.WF S30000 S240000x1 S240000 [] [0] [0] 1
  gather_S30000_S240000x1_S240000_n_0_n_n_0_1_1_wf : GatherDims.WF S30000 S240000x1 S240000 [] [0] [] [0] [] 1 ![1]
  gather_S30000x512_S240000x1_S240000x512_1_0_n_n_0_1_1512_wf : GatherDims.WF S30000x512 S240000x1 S240000x512 [1] [0] [] [0] [] 1 ![1, 512]
  scatter_S30000x512_S240000x1_S240000x512_1_0_0_1_wf : ScatterDims.WF S30000x512 S240000x1 S240000x512 [1] [0] [0] 1
  dot_S30000x512_S512x512_S30000x512_1_0_0_1_n_n_wf : DotDims.WF S30000x512 S512x512 S30000x512 [1] [0] [0] [1] [] []

variable [Facts₀]

def dot_S30000x38_S38x512_S30000x512_1_0_0_1_n_n : DotDims S30000x38 S38x512 S30000x512 where
  lhsContracting := [1]
  rhsContracting := [0]
  lhsNonContracting := [0]
  rhsNonContracting := [1]
  lhsBatch := []
  rhsBatch := []
  wf := dot_S30000x38_S38x512_S30000x512_1_0_0_1_n_n_wf
def scatter_S30000_S240000x1_S240000_n_0_0_1 : ScatterDims S30000 S240000x1 S240000 where
  updateWindowDims := []
  insertedWindowDims := [0]
  scatterDimsToOperandDims := [0]
  indexVectorDim := 1
  wf := scatter_S30000_S240000x1_S240000_n_0_0_1_wf
def gather_S30000_S240000x1_S240000_n_0_n_n_0_1_1 : GatherDims S30000 S240000x1 S240000 where
  offsetDims := []
  collapsedSliceDims := [0]
  operandBatchingDims := []
  startIndicesBatchingDims := []
  startIndexMap := [0]
  indexVectorDim := 1
  sliceSizes := ![1]
  wf := gather_S30000_S240000x1_S240000_n_0_n_n_0_1_1_wf
def gather_S30000x512_S240000x1_S240000x512_1_0_n_n_0_1_1512 : GatherDims S30000x512 S240000x1 S240000x512 where
  offsetDims := [1]
  collapsedSliceDims := [0]
  operandBatchingDims := []
  startIndicesBatchingDims := []
  startIndexMap := [0]
  indexVectorDim := 1
  sliceSizes := ![1, 512]
  wf := gather_S30000x512_S240000x1_S240000x512_1_0_n_n_0_1_1512_wf
def scatter_S30000x512_S240000x1_S240000x512_1_0_0_1 : ScatterDims S30000x512 S240000x1 S240000x512 where
  updateWindowDims := [1]
  insertedWindowDims := [0]
  scatterDimsToOperandDims := [0]
  indexVectorDim := 1
  wf := scatter_S30000x512_S240000x1_S240000x512_1_0_0_1_wf
def dot_S30000x512_S512x512_S30000x512_1_0_0_1_n_n : DotDims S30000x512 S512x512 S30000x512 where
  lhsContracting := [1]
  rhsContracting := [0]
  lhsNonContracting := [0]
  rhsNonContracting := [1]
  lhsBatch := []
  rhsBatch := []
  wf := dot_S30000x512_S512x512_S30000x512_1_0_0_1_n_n_wf

class Facts : Prop extends Facts₀ where

variable [Facts]
-- ==== Proof.KRun.lean ====
/-
  The idealized kernel's run with its result named.

  The program is twelve segments: a stretch of host operations, then the first pipelined region, then five stretches,
  the second region, a stretch, the third region, a stretch and the fourth region. Every weakly fair execution runs
  them in order and ends with every unscoped buffer at the contents the last boundary names, W12. The frame theorem
  reads the eight argument buffers off that final state; this one also reads the result buffer, which the fourth
  region's write-backs filled: it ends at W12's contents there. What W12 holds at the result is worked out, segment by
  segment, in the modules that follow.
-/
import proofs.«150130_j30382598652516_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments
    as launched. -/
theorem run : θ_run defs (onTc (τ := τ) (main (F := F))) ⟨m, fun _ => 0, ρ⟩ (fun r => ∀ c : Dev nD,
      r.2.mem ((c.tc : Thread nD τ).loc main_v80) = V12 m ρ c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v80 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KRun

end
-- ==== Proof.KTerms.lean ====
/-
  The kernel program's host stretches between its regions, as functions of arrays.

  * degOf col w: the weighted in-degree, a segment sum of the edge weights by destination node.
  * dinvOf col w: the node scales, 1 / sqrt(deg) where deg > 0 and 0 elsewhere; dcolOf lays them out as a column.
  * rowWOf row: the source indices with negative values wrapped by + 30000, laid out as a column of start indices.
  * colBOf col: the destination indices laid out as a column of scatter indices.
  * segOf h dcol rowW colB w: one layer's edge stage. Every row of h is scaled by its node's scale (the column repeated
    along the features), the scaled rows are gathered by source node (passing through the 16-bit format and back, the
    identity in exact arithmetic), multiplied by the edge weight, and added up by destination node into zeros.
  Each is spelt with exactly the operations the program prints, so that the buffer contents the run leaves are these
  functions of earlier contents by unfolding alone.
-/
import proofs.«150130_j30382598652516_2_alg».proof.KernelIdeal
import proofs.«150130_j30382598652516_2_alg».proof.Proof.Gen.KernelIdeal
import Idealize.ShloMosaic.PureOps.Ideal

noncomputable section

namespace Cert.KernelIdeal.KTerms

open Idealize.ShloMosaic
open Cert.KernelIdeal Cert.KernelIdeal.Facts₀ Cert.KernelIdeal.Facts

/-- The weighted in-degree of every node. -/
def degOf (col : IVec S240000 32) (wE : FVec Ideal S240000 .f32) : FVec Ideal S30000 .f32 :=
  Host.scatterAdd scatter_S30000_S240000x1_S240000_n_0_0_1
    (broadcastInDim S30000 ![] bcast_S_S30000 (constant S_ .f32 0x00000000#32))
    (broadcastInDim S240000x1 ![0] bcast_S240000_S240000x1_0 col) wE

/-- The node scales: the inverse square root of the degree where it is positive, zero elsewhere. -/
def dinvOf (col : IVec S240000 32) (wE : FVec Ideal S240000 .f32) : FVec Ideal S30000 .f32 :=
  select (cmpf .ogt (degOf col wE) (broadcastInDim S30000 ![] bcast_S_S30000 (constant S_ .f32 0x00000000#32)))
    (Host.rsqrt
      (select (cmpf .ogt (degOf col wE) (broadcastInDim S30000 ![] bcast_S_S30000 (constant S_ .f32 0x00000000#32)))
        (degOf col wE) (broadcastInDim S30000 ![] bcast_S_S30000 (constant S_ .f32 0x3F800000#32))))
    (broadcastInDim S30000 ![] bcast_S_S30000 (constant S_ .f32 0x00000000#32))

/-- The node scales as a column. -/
def dcolOf (col : IVec S240000 32) (wE : FVec Ideal S240000 .f32) : FVec Ideal S30000x1 .f32 :=
  shapeCast S30000x1 (dinvOf col wE) shapeCasts_S30000_S30000x1

/-- The source indices, negative ones wrapped, as a column of start indices. -/
def rowWOf (row : IVec S240000 32) : IVec S240000x1 32 :=
  broadcastInDim S240000x1 ![0] bcast_S240000_S240000x1_0
    (select (cmpi .slt row (broadcastInDim S240000 ![] bcast_S_S240000 (constantI S_ 32 0#32)))
      (addi row (broadcastInDim S240000 ![] bcast_S_S240000 (constantI S_ 32 30000#32))) row)

/-- The destination indices as a column of scatter indices. -/
def colBOf (col : IVec S240000 32) : IVec S240000x1 32 :=
  broadcastInDim S240000x1 ![0] bcast_S240000_S240000x1_0 col

/-- One layer's edge stage: scale the rows, gather by source, weight, add up by destination. -/
def segOf (h : FVec Ideal S30000x512 .f32) (dcol : FVec Ideal S30000x1 .f32) (rowW colB : IVec S240000x1 32)
    (wE : FVec Ideal S240000 .f32) : FVec Ideal S30000x512 .f32 :=
  Host.scatterAdd scatter_S30000x512_S240000x1_S240000x512_1_0_0_1
    (broadcastInDim S30000x512 ![] bcast_S_S30000x512 (constant S_ .f32 0x00000000#32)) colB
    (mulf
      (extf .f32
        (Host.gather gather_S30000x512_S240000x1_S240000x512_1_0_n_n_0_1_1512
          (truncf .bf16 (mulf h (broadcastInDim S30000x512 ![0, 1] bcast_S30000x1_S30000x512_0_1 dcol)) bitsLt_bf16_f32)
          rowW)
        bitsLt_bf16_f32)
      (broadcastInDim S240000x512 ![0, 1] bcast_S240000x1_S240000x512_0_1
        (broadcastInDim S240000x1 ![0] bcast_S240000_S240000x1_0 wE)))

end Cert.KernelIdeal.KTerms

end
-- ==== Proof.LibRealSums.lean ====
/-
  Real-valued extended reals and the one law that needs them.

  On the extended reals addition is commutative and associative, but multiplication does not distribute over
  addition at the infinities. Sums of REAL numbers (extended reals that are neither infinity) behave as in the real
  field: they are closed under +, ·, max and finite sums, and a finite sum of reals times a real is the sum of the
  products. From that follows the exchange used for a graph layer: adding up, over the edges e that land on a node,
  the projected rows  ∑_k a(e,k) · w(k)  gives the same as projecting the added-up rows,
      ∑_e [e lands] ∑_k a(e,k) · w(k)  =  ∑_k (∑_e [e lands] a(e,k)) · w(k).
-/
import Mathlib.Data.EReal.Basic
import Mathlib.Data.EReal.Operations
import Mathlib.Algebra.BigOperators.Group.Finset.Basic
import Mathlib.Algebra.BigOperators.Ring.Finset
import Mathlib.Algebra.BigOperators.Group.Finset.Sigma

noncomputable section

open scoped BigOperators

namespace Cert.RealSums

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type} (s : Finset ι) (f : ι → EReal) (h : ∀ i ∈ s, IsReal (f i)) : IsReal (∑ i ∈ s, f i) :=
  Finset.sum_induction f IsReal (fun _ _ => IsReal.add) isReal_zero h

theorem isReal_ite {p : Prop} [Decidable p] {x : EReal} (hx : IsReal x) : IsReal (if p then x else 0) := by
  split
  · exact hx
  · exact isReal_zero

/-- Right distributivity for three real numbers. -/
theorem add_mul_of_real {a b w : EReal} (ha : IsReal a) (hb : IsReal b) (hw : IsReal w) : (a + b) * w = a * w + b * w := by
  obtain ⟨a, rfl⟩ := ha
  obtain ⟨b, rfl⟩ := hb
  obtain ⟨w, rfl⟩ := hw
  exact_mod_cast congrArg (fun t : ℝ => (t : EReal)) (add_mul a b w)

/-- A finite sum of reals times a real is the sum of the products. -/
theorem sum_mul_of_real {ι : Type} (s : Finset ι) (a : ι → EReal) (w : EReal) (ha : ∀ i, IsReal (a i)) (hw : IsReal w) :
    (∑ i ∈ s, a i) * w = ∑ i ∈ s, a i * w := by
  classical
  induction s using Finset.induction_on with
  | empty => simp
  | insert i s hi ih =>
    rw [Finset.sum_insert hi, Finset.sum_insert hi, add_mul_of_real (ha i) (isReal_sum s a fun j _ => ha j) hw, ih]

/-- Projecting the rows that land and adding them up is adding them up and projecting, for real data. -/
theorem sum_ite_sum_mul {ι κ : Type} [Fintype ι] [Fintype κ] (p : ι → Prop) [DecidablePred p] (a : ι → κ → EReal) (w : κ → EReal)
    (ha : ∀ e k, IsReal (a e k)) (hw : ∀ k, IsReal (w k)) :
    ∑ e, (if p e then ∑ k, a e k * w k else 0) = ∑ k, (∑ e, if p e then a e k else 0) * w k := by
  have h1 : ∀ k, (∑ e, if p e then a e k else 0) * w k = ∑ e, if p e then a e k * w k else 0 := by
    intro k
    rw [sum_mul_of_real _ _ _ (fun e => isReal_ite (ha e k)) (hw k)]
    refine Finset.sum_congr rfl fun e _ => ?_
    split
    · rfl
    · exact zero_mul _
  rw [Finset.sum_congr rfl fun k _ => h1 k, Finset.sum_comm]
  refine Finset.sum_congr rfl fun e _ => ?_
  split
  · rfl
  · exact Finset.sum_const_zero.symm

end Cert.RealSums

end
-- ==== Proof.Spec.lean ====
/-
  One graph-convolution layer, as mathematics on the extended reals, in two arrangements.

  Nodes are n < 30000, features k < 512, edges e < 240000. Edge e carries a weight w e, a source node r e, and lands on
  node n when e is in the set land n. Each node has a scale d n (the inverse square root of its weighted degree).

  * Arrangement A scales every row of h by its own d first, adds up over the edges landing on n the scaled source rows
    times the edge weight, and only then multiplies the sum by d n:
        aggA h n k = (0 + sum over e in land n of (h (r e, k) * d (r e)) * w e) * d n.
  * Arrangement B forms per edge the normalised weight (d (r e) * w e) * d (cl e), where cl e is the node e lands on,
    and adds up the source rows times that weight:
        aggB h n k = 0 + sum over e in land n of h (r e, k) * ((d (r e) * w e) * d (cl e)).

  An edge in land n has cl e = n, so every term of B carries the common factor d n; A pulls it out of the sum. Pulling a
  factor out of a sum is distributivity, which fails on the extended reals at the infinities, so the equality is stated
  for real entries (every h, d, w a real number). The product itself is associative and commutative everywhere.

  Around the aggregate both arrangements do the same thing, one row at a time: mix the row with the same row of the
  first layer's output h0, o k = c08 * agg k + c02 * h0 k, project it by a weight matrix, and clip at zero,
        head o wc j = max (c0 * o j + c1 * sum over k of o k * wc (k, j)) c0.
  The four constants are kept as the bit patterns both programs print; only that they are real numbers, and that the
  zero pattern is 0, is used. A layer maps real entries to real entries, which is what lets three layers be chained.
-/
import Idealize.ShloMosaic.PureOps.Ideal.Laws
import Idealize.ShloMosaic.Lib.ValueIdx
import proofs.«150130_j30382598652516_2_alg».proof.Proof.LibRealSums

noncomputable section

open scoped BigOperators

namespace Cert.GcnSpec

open Idealize.ShloMosaic Idealize.ShloMosaic.ValueIdx Cert.RealSums

/-- Node features: 30000 nodes by 512 features. -/
abbrev NH : Shape := ⟨2, ![30000, 512]⟩
/-- A layer's weight matrix. -/
abbrev HH : Shape := ⟨2, ![512, 512]⟩

/-- The node of an entry of a node-feature array. -/
def rowOf (i : NH.Idx) : Fin 30000 := ⟨(i 0).val, idx2_lt0 i⟩
/-- The feature of an entry of a node-feature array. -/
def colOf (i : NH.Idx) : Fin 512 := ⟨(i 1).val, idx2_lt1 i⟩
theorem rowOf_ix2 (n : Fin 30000) (k : Fin 512) : rowOf (ix2 n k) = n := rfl
theorem colOf_ix2 (n : Fin 30000) (k : Fin 512) : colOf (ix2 n k) = k := rfl
/-- Every entry is the entry of its node and its feature. -/
theorem eq_ix2_rowOf_colOf (i : NH.Idx) : i = ix2 (rowOf i) (colOf i) := by
  funext a; match a with | ⟨0, _⟩ => rfl | ⟨1, _⟩ => rfl

/-! ## The constants -/

/-- A 32-bit pattern whose exponent field is not all ones denotes a real number (zero, subnormal or normal). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split
  · exact ⟨_, rfl⟩
  · exact ⟨_, rfl⟩

/-- 0.8 as printed. -/
abbrev c08 : EReal := Ideal.ofBits .f32 0x3F4CCCCD#32
/-- 0.2 as printed. -/
abbrev c02 : EReal := Ideal.ofBits .f32 0x3E4CCCCD#32
/-- 1.0 as printed. -/
abbrev c1 : EReal := Ideal.ofBits .f32 0x3F800000#32
/-- 0.0 as printed. -/
abbrev c0 : EReal := Ideal.ofBits .f32 0x00000000#32

theorem isReal_c08 : IsReal c08 := isReal_ofBits_f32 _ (by decide)
theorem isReal_c02 : IsReal c02 := isReal_ofBits_f32 _ (by decide)
theorem isReal_c1 : IsReal c1 := isReal_ofBits_f32 _ (by decide)
theorem isReal_c0 : IsReal c0 := isReal_ofBits_f32 _ (by decide)
theorem c0_eq : c0 = 0 := Ideal.ofBits_zero_f32

/-! ## The two aggregates -/

section Layer

variable (land : Fin 30000 → Finset (Fin 240000)) (r cl : Fin 240000 → Fin 30000)
variable (d : Fin 30000 → EReal) (w : Fin 240000 → EReal)

/-- Arrangement A: rows scaled first, the landing node's scale applied to the sum. -/
def aggA (h : NH.Idx → EReal) (n : Fin 30000) (k : Fin 512) : EReal :=
  (c0 + ∑ e ∈ land n, (h (ix2 (r e) k) * d (r e)) * w e) * d n

/-- Arrangement B: the normalised weight per edge. -/
def aggB (h : NH.Idx → EReal) (n : Fin 30000) (k : Fin 512) : EReal :=
  c0 + ∑ e ∈ land n, h (ix2 (r e) k) * ((d (r e) * w e) * d (cl e))

/-- The two aggregates agree on real entries: every edge landing on n has cl e = n, and d n comes out of the sum. -/
theorem aggA_eq_aggB (hcl : ∀ n, ∀ e ∈ land n, cl e = n) (hd : ∀ n, IsReal (d n)) (hw : ∀ e, IsReal (w e))
    (h : NH.Idx → EReal) (hh : ∀ i, IsReal (h i)) (n : Fin 30000) (k : Fin 512) :
    aggA land r d w h n k = aggB land r cl d w h n k := by
  unfold aggA aggB
  rw [c0_eq, zero_add, zero_add,
    sum_mul_of_real (land n) (fun e => (h (ix2 (r e) k) * d (r e)) * w e) (d n)
      (fun e => ((hh _).mul (hd _)).mul (hw e)) (hd n)]
  refine Finset.sum_congr rfl fun e he => ?_
  rw [hcl n e he, mul_assoc, mul_assoc, mul_assoc]

/-- Arrangement A of real entries is real. -/
theorem isReal_aggA (hd : ∀ n, IsReal (d n)) (hw : ∀ e, IsReal (w e)) (h : NH.Idx → EReal) (hh : ∀ i, IsReal (h i))
    (n : Fin 30000) (k : Fin 512) : IsReal (aggA land r d w h n k) :=
  (isReal_c0.add (isReal_sum _ _ fun e _ => ((hh _).mul (hd _)).mul (hw e))).mul (hd n)

/-! ## The rest of the layer, row by row -/

/-- A row of the aggregate mixed with the same row of the first layer's output. -/
def mixRow (a b0 : Fin 512 → EReal) (k : Fin 512) : EReal := c08 * a k + c02 * b0 k

/-- A mixed row projected by the weight matrix and clipped at zero. -/
def headRow (o : Fin 512 → EReal) (wc : HH.Idx → EReal) (j : Fin 512) : EReal :=
  max (c0 * o j + c1 * ∑ k : Fin 512, o k * wc (ix2 k j)) c0

/-- The node scales laid out as a column. -/
abbrev NC : Shape := ⟨2, ![30000, 1]⟩

/-- The combine step on whole arrays: row n of the result is made from row n of the edge sums seg, the scale of n
    and row n of the first layer's output; nothing of any other row enters. -/
def combine (seg : NH.Idx → EReal) (dcol : NC.Idx → EReal) (h0 : NH.Idx → EReal) (wc : HH.Idx → EReal) : NH.Idx → EReal :=
  fun i => headRow (mixRow (fun k => seg (ix2 (rowOf i) k) * dcol (ix2 (rowOf i) (0 : Fin 1))) (fun k => h0 (ix2 (rowOf i) k))) wc (colOf i)

/-- The whole layer in arrangement A. -/
def layerA (h0 h : NH.Idx → EReal) (wc : HH.Idx → EReal) : NH.Idx → EReal :=
  fun i => headRow (mixRow (aggA land r d w h (rowOf i)) (fun k => h0 (ix2 (rowOf i) k))) wc (colOf i)

/-- The whole layer in arrangement B. -/
def layerB (h0 h : NH.Idx → EReal) (wc : HH.Idx → EReal) : NH.Idx → EReal :=
  fun i => headRow (mixRow (aggB land r cl d w h (rowOf i)) (fun k => h0 (ix2 (rowOf i) k))) wc (colOf i)

/-- The combine step applied to the edge sums of scaled rows is arrangement A. -/
theorem combine_eq_layerA (seg : NH.Idx → EReal) (dcol : NC.Idx → EReal) (h0 h : NH.Idx → EReal) (wc : HH.Idx → EReal)
    (hseg : ∀ n k, seg (ix2 n k) = c0 + ∑ e ∈ land n, (h (ix2 (r e) k) * d (r e)) * w e)
    (hd : ∀ n, dcol (ix2 n (0 : Fin 1)) = d n) :
    combine seg dcol h0 wc = layerA land r d w h0 h wc := by
  funext i
  unfold combine layerA
  refine congrArg (fun a => headRow (mixRow a (fun k => h0 (ix2 (rowOf i) k))) wc (colOf i)) (funext fun k => ?_)
  rw [hseg, hd]
  rfl

/-- The two layers are one function on real entries. -/
theorem layerA_eq_layerB (hcl : ∀ n, ∀ e ∈ land n, cl e = n) (hd : ∀ n, IsReal (d n)) (hw : ∀ e, IsReal (w e))
    (h0 h : NH.Idx → EReal) (hh : ∀ i, IsReal (h i)) (wc : HH.Idx → EReal) :
    layerA land r d w h0 h wc = layerB land r cl d w h0 h wc := by
  have e : aggA land r d w h = aggB land r cl d w h :=
    funext fun n => funext fun k => aggA_eq_aggB land r cl d w hcl hd hw h hh n k
  unfold layerA layerB
  rw [e]

/-- A layer of real entries is real. -/
theorem isReal_layerA (hd : ∀ n, IsReal (d n)) (hw : ∀ e, IsReal (w e)) (h0 h : NH.Idx → EReal)
    (hh0 : ∀ i, IsReal (h0 i)) (hh : ∀ i, IsReal (h i)) (wc : HH.Idx → EReal) (hwc : ∀ i, IsReal (wc i))
    (i : NH.Idx) : IsReal (layerA land r d w h0 h wc i) := by
  have ho : ∀ k, IsReal (mixRow (aggA land r d w h (rowOf i)) (fun k => h0 (ix2 (rowOf i) k)) k) := fun k =>
    (isReal_c08.mul (isReal_aggA land r d w hd hw h hh (rowOf i) k)).add (isReal_c02.mul (hh0 _))
  exact ((isReal_c0.mul (ho _)).add (isReal_c1.mul (isReal_sum _ _ fun k _ => (ho k).mul (hwc _)))).max isReal_c0

end Layer

end Cert.GcnSpec

end
-- ==== Proof.SpecLin.lean ====
/-
  The first layer as mathematics: a row of 38 input features times the transposed weight matrix, plus the bias.

        linRow f w1t brow j = (sum over k < 38 of f k * w1t (k, j)) + brow (0, j),
  and lin feat w1t brow is the 30000 by 512 array whose row n is linRow of row n of feat. A sum of products plus one
  more term needs no finiteness to be rearranged here: both programs add up the same 38 products in the same order.
-/
import proofs.«150130_j30382598652516_2_alg».proof.Proof.Spec

noncomputable section

open scoped BigOperators

namespace Cert.GcnSpec

open Idealize.ShloMosaic Idealize.ShloMosaic.ValueIdx Cert.RealSums

/-- The input features kept: 30000 nodes by 38 features. -/
abbrev NF : Shape := ⟨2, ![30000, 38]⟩
/-- The first layer's weight matrix, transposed. -/
abbrev FH : Shape := ⟨2, ![38, 512]⟩
/-- The bias laid out as one row. -/
abbrev BR : Shape := ⟨2, ![1, 512]⟩

/-- One row of the first layer. -/
def linRow (f : Fin 38 → EReal) (w1t : FH.Idx → EReal) (brow : BR.Idx → EReal) (j : Fin 512) : EReal :=
  (∑ k : Fin 38, f k * w1t (ix2 k j)) + brow (ix2 (0 : Fin 1) j)

/-- The first layer on whole arrays. -/
def lin (feat : NF.Idx → EReal) (w1t : FH.Idx → EReal) (brow : BR.Idx → EReal) : NH.Idx → EReal :=
  fun i => linRow (fun k => feat (ix2 (rowOf i) k)) w1t brow (colOf i)

/-- The first layer of real entries is real. -/
theorem isReal_lin (feat : NF.Idx → EReal) (w1t : FH.Idx → EReal) (brow : BR.Idx → EReal)
    (hf : ∀ i, IsReal (feat i)) (hw : ∀ i, IsReal (w1t i)) (hb : ∀ i, IsReal (brow i)) (i : NH.Idx) :
    IsReal (lin feat w1t brow i) :=
  (isReal_sum _ _ fun k _ => (hf _).mul (hw _)).add (hb _)

end Cert.GcnSpec

end
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.LinBody.lean ====
/-
  The first layer's kernel body on one block of 1000 nodes, read at an entry.

  The body loads a block of input features (1000 by 38), the whole transposed weight matrix (38 by 512) and the bias row
  (1 by 512), multiplies on the matrix unit into a zero accumulator and adds the bias row to every row. In exact
  arithmetic a change of float format is the identity and the matrix product is a plain sum over the 38 inner indices,
  so the stored block at row p, feature q is the spec's linRow of row p.
-/
import proofs.«150130_j30382598652516_2_alg».proof.Proof.Gen.KernelIdeal.Skeleton
import proofs.«150130_j30382598652516_2_alg».proof.Proof.SpecLin
import proofs.«150130_j30382598652516_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.LinBody

open Idealize.ShloMosaic Idealize.ShloMosaic.ValueIdx
open Cert.KernelIdeal Cert.KernelIdeal.Facts₀ Cert.KernelIdeal.Facts Cert.GcnSpec

/-! ## The matrix product's dimension numbers are the plain ones -/

theorem lhs0 (i : S1000x512.Idx) (q : dot_S1000x38_S38x512_S1000x512_1_0_0_1_n_n.contr.Idx) : (dot_S1000x38_S38x512_S1000x512_1_0_0_1_n_n.lhsIdx i q 0).val = (i 0).val := by
  unfold DotDims.lhsIdx
  rw [dif_neg (show ¬(0 : Fin S1000x38.rank) ∈ dot_S1000x38_S38x512_S1000x512_1_0_0_1_n_n.lhsBatch by decide),
    dif_pos (show (0 : Fin S1000x38.rank) ∈ dot_S1000x38_S38x512_S1000x512_1_0_0_1_n_n.lhsNonContracting by decide)]
  rfl
theorem lhs1 (i : S1000x512.Idx) (q : dot_S1000x38_S38x512_S1000x512_1_0_0_1_n_n.contr.Idx) : (dot_S1000x38_S38x512_S1000x512_1_0_0_1_n_n.lhsIdx i q 1).val = (q ⟨0, by decide⟩).val :=
  dot_S1000x38_S38x512_S1000x512_1_0_0_1_n_n.lhsIdx_val_of_single rfl i q
theorem rhs0 (i : S1000x512.Idx) (q : dot_S1000x38_S38x512_S1000x512_1_0_0_1_n_n.contr.Idx) : (dot_S1000x38_S38x512_S1000x512_1_0_0_1_n_n.rhsIdx i q 0).val = (q ⟨0, by decide⟩).val :=
  dot_S1000x38_S38x512_S1000x512_1_0_0_1_n_n.rhsIdx_val_of_single rfl i q
theorem rhs1 (i : S1000x512.Idx) (q : dot_S1000x38_S38x512_S1000x512_1_0_0_1_n_n.contr.Idx) : (dot_S1000x38_S38x512_S1000x512_1_0_0_1_n_n.rhsIdx i q 1).val = (i 1).val := by
  unfold DotDims.rhsIdx
  rw [dif_neg (show ¬(1 : Fin S38x512.rank) ∈ dot_S1000x38_S38x512_S1000x512_1_0_0_1_n_n.rhsBatch by decide),
    dif_pos (show (1 : Fin S38x512.rank) ∈ dot_S1000x38_S38x512_S1000x512_1_0_0_1_n_n.rhsNonContracting by decide)]
  rfl

/-! ## The body as one term, read at an entry -/

variable (x0 : Vec Ideal S1000x38 .f32) (x1 : Vec Ideal S38x512 .bf16) (x2 : Vec Ideal S1x512 .f32)

/-- What the body stores: the block times the weights, plus the bias row on every row. -/
def linTerm : FVec Ideal S1000x512 .f32 :=
  addf
    (matmul dot_S1000x38_S38x512_S1000x512_1_0_0_1_n_n none (truncf .bf16 (shapeCast S1000x38 x0 shapeCasts_S1000x38_S1000x38 : FVec Ideal S1000x38 .f32) bitsLt_bf16_f32)
      (shapeCast S38x512 x1 shapeCasts_S38x512_S38x512 : FVec Ideal S38x512 .bf16) (constant S1000x512 .f32 0x00000000#32))
    (broadcastTo S1000x512 (shapeCast S1x512 x2 shapeCasts_S1x512_S1x512 : FVec Ideal S1x512 .f32) broadcasts_S1x512_S1000x512)

/-- The printed body is this term. -/
theorem pay0_eq : Gen.k0_pay1 (F := Ideal) x0 x1 x2 = linTerm x0 x1 x2 := rfl

/-- The stored block at row p, feature q. -/
theorem linTerm_apply (p : Fin 1000) (q : Fin 512) :
    linTerm x0 x1 x2 (ix2 p q) = linRow (fun k => x0 (ix2 p k)) x1 x2 q := by
  unfold linTerm
  rw [shapeCast_self, shapeCast_self, shapeCast_self]
  show FloatOps.matmul (F := Ideal) dot_S1000x38_S38x512_S1000x512_1_0_0_1_n_n none (truncf .bf16 (x0 : FVec Ideal S1000x38 .f32) bitsLt_bf16_f32) (x1 : FVec Ideal S38x512 .bf16)
      (constant S1000x512 .f32 0x00000000#32) (ix2 p q)
    + broadcastTo S1000x512 (x2 : FVec Ideal S1x512 .f32) broadcasts_S1x512_S1000x512 (ix2 p q) = _
  rw [Cert.LibPlainDot.matmul_zero_plain dot_S1000x38_S38x512_S1000x512_1_0_0_1_n_n rfl rfl lhs0 lhs1 rhs0 rhs1 none _ _ p q, broadcastTo_1b_ab_apply]
  rfl

/-- A block entry against the whole-array first layer: if row p of the loaded block is row (rowOf i) of feat, the
    loaded weights and bias row are w1t and brow, and q is i's feature, the stored block at (p, q) is lin's entry i. -/
theorem blk_eq (feat : NF.Idx → EReal) (w1t : FH.Idx → EReal) (brow : BR.Idx → EReal)
    (p : Fin 1000) (q : Fin 512) (i : NH.Idx)
    (e0 : ∀ k : Fin 38, x0 (ix2 p k) = feat (ix2 (rowOf i) k))
    (e1 : ∀ y : S38x512.Idx, x1 y = w1t y)
    (e2 : ∀ y : S1x512.Idx, x2 y = brow y)
    (eq : q = colOf i) :
    linTerm x0 x1 x2 (ix2 p q) = lin feat w1t brow i := by
  rw [linTerm_apply]
  unfold lin
  have ha : (fun k => x0 (ix2 p k)) = fun k => feat (ix2 (rowOf i) k) := funext e0
  have hw : (x1 : FH.Idx → EReal) = w1t := funext e1
  have hb : (x2 : BR.Idx → EReal) = brow := funext e2
  rw [ha, eq]
  exact (congrArg (fun w => linRow _ w x2 (colOf i)) hw).trans (congrArg (fun b => linRow _ w1t b (colOf i)) hb)

end Cert.KernelIdeal.LinBody

end
-- ==== Proof.Reg0.lean ====
/-
  Region 0 of the kernel: what the first layer's output array holds when the region is left.

  The region walks a grid of 30 points; point t loads rows 1000 t to 1000 t + 999 of the input features, the whole
  transposed weight matrix and the bias row, runs the first layer's body and writes the result back to the same rows
  of the output array. The 30 blocks tile the array, and what a point writes is that block of ONE whole-array function
  of the arrays the region found on entry (the spec's lin), because the body's row p depends only on row p of the
  features. So the output array ends holding that function.
-/
import proofs.«150130_j30382598652516_2_alg».proof.Proof.Gen.KernelIdeal.Frame
import proofs.«150130_j30382598652516_2_alg».proof.Proof.LinBody

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: features and output at block t, weights and bias row at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the first layer of the arrays as the region found them. -/
theorem flushed_eq (c : Dev nD) (t : Fin cfg0.N) :
    (dat0 (F := Ideal) V c).flushed 3 t = ((cfg0.win 3).blk t).view.read (Elt Ideal)
      (lin (V c main_v8) (V c main_v10) (V c main_v11)) := by
  show (cfg0.win 3).cut (grid0.coords t) ((dat0 V c).after 3 t) = _
  rw [after0_3]
  unfold out0_3
  rw [View.canon_unit_zero zero_offsets]
  simp only [View.ld_unit_zero (S := S1000x38) zero_offsets, View.ld_unit_zero (S := S38x512) zero_offsets,
    View.ld_unit_zero (S := S1x512) zero_offsets]
  rw [LinBody.pay0_eq]
  obtain ⟨a00, a01, a10, a11, a20, a21, a30, a31⟩ := idx_facts t
  funext j
  have hj0 : (j 0).val < 1000 := (j 0).isLt
  have hj1 : (j 1).val < 512 := (j 1).isLt
  refine (congrArg (LinBody.linTerm _ _ _) (eq_ix2 (n0 := 1000) (n1 := 512) j)).trans ?_
  refine LinBody.blk_eq _ _ _ _ _ _ (j 0) (j 1) (((cfg0.win 3).blk t).view.emb j) (fun k => ?_) (fun y => ?_) (fun y => ?_) ?_
  · show V c main_v8 (((cfg0.win 0).blk t).view.emb (ix2 (j 0) k)) = V c main_v8 _
    refine congrArg (V c main_v8) (funext fun a => Fin.ext ?_)
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 38 + 1 * k.val = k.val; omega
  · show V c main_v10 (((cfg0.win 1).blk t).view.emb y) = V c main_v10 y
    refine congrArg (V c main_v10) (funext fun a => Fin.ext ?_)
    match a with
    | ⟨0, _⟩ => show win0_1.index t (0 : Fin 2) * 38 + 1 * (y 0).val = (y 0).val; omega
    | ⟨1, _⟩ => show win0_1.index t (1 : Fin 2) * 512 + 1 * (y 1).val = (y 1).val; omega
  · show V c main_v11 (((cfg0.win 2).blk t).view.emb y) = V c main_v11 y
    refine congrArg (V c main_v11) (funext fun a => Fin.ext ?_)
    match a with
    | ⟨0, _⟩ => show win0_2.index t (0 : Fin 2) * 1 + 1 * (y 0).val = (y 0).val; omega
    | ⟨1, _⟩ => show win0_2.index t (1 : Fin 2) * 512 + 1 * (y 1).val = (y 1).val; omega
  · refine Fin.ext ?_
    show (j 1).val = win0_3.index t (1 : Fin 2) * 512 + 1 * (j 1).val
    omega

/-- An index of the output array is in point t's block iff each coordinate is in the block's range on its axis. -/
theorem mem_blk (t : Fin cfg0.N) (i : S30000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v12).slice (win0_3.rect t)).set ↔ _
  rw [View.set_slice_whole, Rect.mem_set_unit]
  exact Iff.rfl

/-- Every index of the output array is in some point's block: the point of row r is r / 1000. -/
theorem cover (i : S30000x512.Idx) :
    ∃ t : Fin cfg0.N, (cfg0.win 3).flush t = true ∧ i ∈ ((cfg0.win 3).blk t).view.set := by
  have hi0 : (i 0).val < 30000 := (i 0).isLt
  have hi1 : (i 1).val < 512 := (i 1).isLt
  have hN : cfg0.N = 30 := N_0
  let t : Fin cfg0.N := ⟨(i 0).val / 1000, by rw [hN]; omega⟩
  obtain ⟨a00, a01, a10, a11, a20, a21, a30, a31⟩ := idx_facts t
  have ht : t.val = (i 0).val / 1000 := rfl
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 512 ≤ (i 1).val ∧ (i 1).val < win0_3.index t (1 : Fin 2) * 512 + 512; omega

/-- The output array after the region: the first layer of the arrays the region found. -/
theorem out_eq (c : Dev nD) :
    (dat0 (F := Ideal) V c).arrAt 3 cfg0.N = lin (V c main_v8) (V c main_v10) (V c main_v11) :=
  (dat0 (F := Ideal) V c).arrAt_eq_of_cover 3 _ (fun t _ => flushed_eq V c t) cover

end Cert.KernelIdeal.Reg0

end
-- ==== Proof.KFoldA.lean ====
/-
  The kernel's buffers up to the entry of its second region, as functions of the arguments.

  After the first stretch of host operations the source indices, destination indices, edge weights, kept input
  features and transposed first-layer weights are the same slices, reshapes, quotient and transpose of the arguments
  that the reference program computes (its stage functions are used to name them); the bias is reshaped to one row.
  The first region leaves the first layer h0 = lin(features, weights, bias row) in its output array and everything
  else as it was. The stretches before the second region then compute the node scales and the first edge stage from
  those, and narrow the three layer weight matrices (the identity in exact arithmetic).
-/
import proofs.«150130_j30382598652516_2_alg».proof.Proof.Gen.KernelIdeal.Frame
import proofs.«150130_j30382598652516_2_alg».proof.Proof.Gen.ReferenceIdeal.Read
import proofs.«150130_j30382598652516_2_alg».proof.Proof.KTerms
import proofs.«150130_j30382598652516_2_alg».proof.Proof.Reg0
import Idealize.ShloMosaic.Lib.StableHlo.Run

set_option maxRecDepth 16384

noncomputable section

namespace Cert.KernelIdeal.KFoldA

open Idealize.ShloMosaic Idealize.ShloMosaic.TcCoe Idealize.SL.Sem Idealize.ShloMosaic.StableHlo
open Cert.KernelIdeal Cert.KernelIdeal.Gen Cert.KernelIdeal.KTerms Cert.GcnSpec

variable (m : (ℓ : Loc nD τ sig) → Buf (Elt Ideal) ℓ) (ρ : Dev nD → PrngReg) (c : Dev nD)

/-! ## The canonical values -/

/-- The source indices. -/
def rowC : IVec S240000 32 := Cert.ReferenceIdeal.Read.val_main_v1 (F := Ideal) (m ((c : Thread nD τ).loc main_arg1))
/-- The destination indices. -/
def colC : IVec S240000 32 := Cert.ReferenceIdeal.Read.val_main_v3 (F := Ideal) (m ((c : Thread nD τ).loc main_arg1))
/-- The edge weights. -/
def wC : FVec Ideal S240000 .f32 := Cert.ReferenceIdeal.Read.val_main_v7 (F := Ideal) (m ((c : Thread nD τ).loc main_arg2))
/-- The kept input features. -/
def featC : FVec Ideal S30000x38 .f32 := Cert.ReferenceIdeal.Read.val_main_v8 (F := Ideal) (m ((c : Thread nD τ).loc main_arg0))
/-- The transposed first-layer weights, narrowed. -/
def w1tC : FVec Ideal S38x512 .bf16 :=
  truncf .bf16 (Cert.ReferenceIdeal.Read.val_main_v9 (F := Ideal) (m ((c : Thread nD τ).loc main_arg3))) Facts₀.bitsLt_bf16_f32
/-- The bias as one row. -/
def browC : FVec Ideal S1x512 .f32 := shapeCast S1x512 (m ((c : Thread nD τ).loc main_arg4)) Facts₀.shapeCasts_S512_S1x512
/-- The first layer. -/
def h0C : FVec Ideal S30000x512 .f32 := lin (featC m c) (w1tC m c) (browC m c)
/-- The layer weight matrices, narrowed. -/
def wc1C : FVec Ideal S512x512 .bf16 := truncf .bf16 (m ((c : Thread nD τ).loc main_arg5)) Facts₀.bitsLt_bf16_f32
def wc2C : FVec Ideal S512x512 .bf16 := truncf .bf16 (m ((c : Thread nD τ).loc main_arg6)) Facts₀.bitsLt_bf16_f32
def wc3C : FVec Ideal S512x512 .bf16 := truncf .bf16 (m ((c : Thread nD τ).loc main_arg7)) Facts₀.bitsLt_bf16_f32

/-! ## After the first stretch -/

theorem v1_at1 : V1 m ρ c main_v1 = rowC m c := by
  show W1 m ρ c (Proc.devRef .tc main_v1) = _
  simp only [W1, hostOps0]; after_results_simp; rfl
theorem v3_at1 : V1 m ρ c main_v3 = colC m c := by
  show W1 m ρ c (Proc.devRef .tc main_v3) = _
  simp only [W1, hostOps0]; after_results_simp; rfl
theorem v7_at1 : V1 m ρ c main_v7 = wC m c := by
  show W1 m ρ c (Proc.devRef .tc main_v7) = _
  simp only [W1, hostOps0]; after_results_simp; rfl
theorem v8_at1 : V1 m ρ c main_v8 = featC m c := by
  show W1 m ρ c (Proc.devRef .tc main_v8) = _
  simp only [W1, hostOps0]; after_results_simp; rfl
theorem v10_at1 : V1 m ρ c main_v10 = w1tC m c := by
  show W1 m ρ c (Proc.devRef .tc main_v10) = _
  simp only [W1, hostOps0]; after_results_simp; rfl
theorem v11_at1 : V1 m ρ c main_v11 = browC m c := by
  show W1 m ρ c (Proc.devRef .tc main_v11) = _
  simp only [W1, hostOps0]; after_results_simp; rfl
theorem arg5_at1 : V1 m ρ c main_arg5 = m ((c : Thread nD τ).loc main_arg5) := by
  show W1 m ρ c (Proc.devRef .tc main_arg5) = _
  simp only [W1, hostOps0]; after_results_simp
theorem arg6_at1 : V1 m ρ c main_arg6 = m ((c : Thread nD τ).loc main_arg6) := by
  show W1 m ρ c (Proc.devRef .tc main_arg6) = _
  simp only [W1, hostOps0]; after_results_simp
theorem arg7_at1 : V1 m ρ c main_arg7 = m ((c : Thread nD τ).loc main_arg7) := by
  show W1 m ρ c (Proc.devRef .tc main_arg7) = _
  simp only [W1, hostOps0]; after_results_simp

/-! ## After the first region -/

theorem v12_at2 : V2 m ρ c main_v12 = h0C m c :=
  (W2_arr m ρ c 3).trans ((Reg0.out_eq (V1 m ρ) c).trans (by rw [v8_at1, v10_at1, v11_at1]; rfl))
theorem v1_at2 : V2 m ρ c main_v1 = rowC m c := (W2_of_ne m ρ c main_v1 (by decide)).trans (v1_at1 m ρ c)
theorem v3_at2 : V2 m ρ c main_v3 = colC m c := (W2_of_ne m ρ c main_v3 (by decide)).trans (v3_at1 m ρ c)
theorem v7_at2 : V2 m ρ c main_v7 = wC m c := (W2_of_ne m ρ c main_v7 (by decide)).trans (v7_at1 m ρ c)
theorem arg5_at2 : V2 m ρ c main_arg5 = m ((c : Thread nD τ).loc main_arg5) :=
  (W2_of_ne m ρ c main_arg5 (by decide)).trans (arg5_at1 m ρ c)
theorem arg6_at2 : V2 m ρ c main_arg6 = m ((c : Thread nD τ).loc main_arg6) :=
  (W2_of_ne m ρ c main_arg6 (by decide)).trans (arg6_at1 m ρ c)
theorem arg7_at2 : V2 m ρ c main_arg7 = m ((c : Thread nD τ).loc main_arg7) :=
  (W2_of_ne m ρ c main_arg7 (by decide)).trans (arg7_at1 m ρ c)

/-! ## The two where-selections, with the plain operation builders -/

/-- The first selection (degree where positive, else one), as three plain operations. -/
theorem where0_eq : (hostOps1_1 : List (HloOp τ sig (Elt Ideal))) =
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S30000 ![] Facts₀.bcast_S_S30000 : (⟨S_, .f32⟩ : BufTy).Contents (Elt Ideal) → (⟨S30000, .f32⟩ : BufTy).Contents (Elt Ideal)),
    StableHlo.ternary main_v17 main_v15 main_call0_v1 main_v18 (select : (⟨S30000, .i1⟩ : BufTy).Contents (Elt Ideal) → (⟨S30000, .f32⟩ : BufTy).Contents (Elt Ideal) → (⟨S30000, .f32⟩ : BufTy).Contents (Elt Ideal) → (⟨S30000, .f32⟩ : BufTy).Contents (Elt Ideal)) ] := rfl

/-- The second selection (inverse square root where the degree is positive, else zero), as three plain operations. -/
theorem where1_eq : (hostOps1_3 : List (HloOp τ sig (Elt Ideal))) =
  [ StableHlo.unary main_cst_4 main_call1_v0 (id : (⟨S_, .f32⟩ : BufTy).Contents (Elt Ideal) → (⟨S_, .f32⟩ : BufTy).Contents (Elt Ideal)),
    StableHlo.unary main_call1_v0 main_call1_v1 (broadcastInDim S30000 ![] Facts₀.bcast_S_S30000 : (⟨S_, .f32⟩ : BufTy).Contents (Elt Ideal) → (⟨S30000, .f32⟩ : BufTy).Contents (Elt Ideal)),
    StableHlo.ternary main_v20 main_v21 main_call1_v1 main_v22 (select : (⟨S30000, .i1⟩ : BufTy).Contents (Elt Ideal) → (⟨S30000, .f32⟩ : BufTy).Contents (Elt Ideal) → (⟨S30000, .f32⟩ : BufTy).Contents (Elt Ideal) → (⟨S30000, .f32⟩ : BufTy).Contents (Elt Ideal)) ] := rfl

/-! ## On entry to the second region -/

/-- The node scales as a column. -/
def dcolC : FVec Ideal S30000x1 .f32 := dcolOf (colC m c) (wC m c)

theorem v43_at7 : V7 m ρ c main_v43 = segOf (h0C m c) (dcolC m c) (rowWOf (rowC m c)) (colBOf (colC m c)) (wC m c) := by
  have e : V7 m ρ c main_v43 = segOf (V2 m ρ c main_v12) (dcolOf (V2 m ρ c main_v3) (V2 m ρ c main_v7))
      (rowWOf (V2 m ρ c main_v1)) (colBOf (V2 m ρ c main_v3)) (V2 m ρ c main_v7) := by
    show W7 m ρ c (Proc.devRef .tc main_v43) = _
    simp only [W7, W6, W5, W4, W3]
    rw [where0_eq, where1_eq]
    simp only [hostOps1, hostOps1_2, hostOps1_4]
    after_results_simp
    rfl
  rw [e, v12_at2, v3_at2, v7_at2, v1_at2]; rfl
theorem v23_at7 : V7 m ρ c main_v23 = dcolC m c := by
  have e : V7 m ρ c main_v23 = dcolOf (V2 m ρ c main_v3) (V2 m ρ c main_v7) := by
    show W7 m ρ c (Proc.devRef .tc main_v23) = _
    simp only [W7, W6, W5, W4, W3]
    rw [where0_eq, where1_eq]
    simp only [hostOps1, hostOps1_2, hostOps1_4]
    after_results_simp
    rfl
  rw [e, v3_at2, v7_at2]; rfl
theorem v12_at7 : V7 m ρ c main_v12 = h0C m c := by
  have e : V7 m ρ c main_v12 = V2 m ρ c main_v12 := by
    show W7 m ρ c (Proc.devRef .tc main_v12) = _
    simp only [W7, W6, W5, W4, W3]
    rw [where0_eq, where1_eq]
    simp only [hostOps1, hostOps1_2, hostOps1_4]
    after_results_simp
  rw [e, v12_at2]
theorem v1_at7 : V7 m ρ c main_v1 = rowC m c := by
  have e : V7 m ρ c main_v1 = V2 m ρ c main_v1 := by
    show W7 m ρ c (Proc.devRef .tc main_v1) = _
    simp only [W7, W6, W5, W4, W3]
    rw [where0_eq, where1_eq]
    simp only [hostOps1, hostOps1_2, hostOps1_4]
    after_results_simp
  rw [e, v1_at2]
theorem v3_at7 : V7 m ρ c main_v3 = colC m c := by
  have e : V7 m ρ c main_v3 = V2 m ρ c main_v3 := by
    show W7 m ρ c (Proc.devRef .tc main_v3) = _
    simp only [W7, W6, W5, W4, W3]
    rw [where0_eq, where1_eq]
    simp only [hostOps1, hostOps1_2, hostOps1_4]
    after_results_simp
  rw [e, v3_at2]
theorem v7_at7 : V7 m ρ c main_v7 = wC m c := by
  have e : V7 m ρ c main_v7 = V2 m ρ c main_v7 := by
    show W7 m ρ c (Proc.devRef .tc main_v7) = _
    simp only [W7, W6, W5, W4, W3]
    rw [where0_eq, where1_eq]
    simp only [hostOps1, hostOps1_2, hostOps1_4]
    after_results_simp
  rw [e, v7_at2]
theorem v24_at7 : V7 m ρ c main_v24 = wc1C m c := by
  have e : V7 m ρ c main_v24 = (truncf .bf16 (V2 m ρ c main_arg5 : FVec Ideal S512x512 .f32) Facts₀.bitsLt_bf16_f32 : FVec Ideal S512x512 .bf16) := by
    show W7 m ρ c (Proc.devRef .tc main_v24) = _
    simp only [W7, W6, W5, W4, W3]
    rw [where0_eq, where1_eq]
    simp only [hostOps1, hostOps1_2, hostOps1_4]
    after_results_simp
  rw [e, arg5_at2]; rfl
theorem v25_at7 : V7 m ρ c main_v25 = wc2C m c := by
  have e : V7 m ρ c main_v25 = (truncf .bf16 (V2 m ρ c main_arg6 : FVec Ideal S512x512 .f32) Facts₀.bitsLt_bf16_f32 : FVec Ideal S512x512 .bf16) := by
    show W7 m ρ c (Proc.devRef .tc main_v25) = _
    simp only [W7, W6, W5, W4, W3]
    rw [where0_eq, where1_eq]
    simp only [hostOps1, hostOps1_2, hostOps1_4]
    after_results_simp
  rw [e, arg6_at2]; rfl
theorem v26_at7 : V7 m ρ c main_v26 = wc3C m c := by
  have e : V7 m ρ c main_v26 = (truncf .bf16 (V2 m ρ c main_arg7 : FVec Ideal S512x512 .f32) Facts₀.bitsLt_bf16_f32 : FVec Ideal S512x512 .bf16) := by
    show W7 m ρ c (Proc.devRef .tc main_v26) = _
    simp only [W7, W6, W5, W4, W3]
    rw [where0_eq, where1_eq]
    simp only [hostOps1, hostOps1_2, hostOps1_4]
    after_results_simp
  rw [e, arg7_at2]; rfl

end Cert.KernelIdeal.KFoldA

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.CombineBody.lean ====
/-
  The combine kernel's body on one block of 1000 nodes, read at an entry.

  The body loads a block seg of edge sums (1000 by 512), the block's column of node scales dcol (1000 by 1), the same
  block of the first layer's output h0 (1000 by 512) and the whole weight matrix wc (512 by 512). It forms the mixed
  block o = c08 * (seg * dcol) + c02 * h0, the column repeated along the features, multiplies o by wc on the matrix
  unit into a zero accumulator, and stores max (c0 * o + c1 * (o wc)) c0. Read at row p and feature q in exact
  arithmetic, where a change of float format is the identity and the matrix product is a plain sum over the inner
  index, that is the spec's headRow of the spec's mixRow of row p: only row p of seg and h0 and the scale of p enter.
  The three combine kernels of the program print the same body, so the term is written once here.
-/
import proofs.«150130_j30382598652516_2_alg».proof.Proof.Gen.KernelIdeal.Skeleton
import proofs.«150130_j30382598652516_2_alg».proof.Proof.Spec
import proofs.«150130_j30382598652516_2_alg».proof.Proof.LibPlainDot
import proofs.«150130_j30382598652516_2_alg».proof.Proof.LibLayout
import Idealize.ShloMosaic.Lib.Pipeline.Value
import Idealize.ShloMosaic.Lib.ValueIdx
import Idealize.ShloMosaic.PureOps.Ideal.Laws

noncomputable section

open scoped BigOperators

namespace Cert.KernelIdeal.CombineBody

open Idealize.ShloMosaic Idealize.ShloMosaic.ValueIdx
open Cert.KernelIdeal Cert.KernelIdeal.Facts₀ Cert.KernelIdeal.Facts Cert.GcnSpec

/-! ## The matrix product's dimension numbers are the plain ones -/

theorem lhs0 (i : S1000x512.Idx) (q : dot_S1000x512_S512x512_S1000x512_1_0_0_1_n_n.contr.Idx) : (dot_S1000x512_S512x512_S1000x512_1_0_0_1_n_n.lhsIdx i q 0).val = (i 0).val := by
  unfold DotDims.lhsIdx
  rw [dif_neg (show ¬(0 : Fin S1000x512.rank) ∈ dot_S1000x512_S512x512_S1000x512_1_0_0_1_n_n.lhsBatch by decide),
    dif_pos (show (0 : Fin S1000x512.rank) ∈ dot_S1000x512_S512x512_S1000x512_1_0_0_1_n_n.lhsNonContracting by decide)]
  rfl
theorem lhs1 (i : S1000x512.Idx) (q : dot_S1000x512_S512x512_S1000x512_1_0_0_1_n_n.contr.Idx) : (dot_S1000x512_S512x512_S1000x512_1_0_0_1_n_n.lhsIdx i q 1).val = (q ⟨0, by decide⟩).val :=
  dot_S1000x512_S512x512_S1000x512_1_0_0_1_n_n.lhsIdx_val_of_single rfl i q
theorem rhs0 (i : S1000x512.Idx) (q : dot_S1000x512_S512x512_S1000x512_1_0_0_1_n_n.contr.Idx) : (dot_S1000x512_S512x512_S1000x512_1_0_0_1_n_n.rhsIdx i q 0).val = (q ⟨0, by decide⟩).val :=
  dot_S1000x512_S512x512_S1000x512_1_0_0_1_n_n.rhsIdx_val_of_single rfl i q
theorem rhs1 (i : S1000x512.Idx) (q : dot_S1000x512_S512x512_S1000x512_1_0_0_1_n_n.contr.Idx) : (dot_S1000x512_S512x512_S1000x512_1_0_0_1_n_n.rhsIdx i q 1).val = (i 1).val := by
  unfold DotDims.rhsIdx
  rw [dif_neg (show ¬(1 : Fin S512x512.rank) ∈ dot_S1000x512_S512x512_S1000x512_1_0_0_1_n_n.rhsBatch by decide),
    dif_pos (show (1 : Fin S512x512.rank) ∈ dot_S1000x512_S512x512_S1000x512_1_0_0_1_n_n.rhsNonContracting by decide)]
  rfl

/-! ## The body as one term -/

variable (x0 : Vec Ideal S1000x512 .f32) (x1 : Vec Ideal S1000x1 .f32) (x2 : Vec Ideal S1000x512 .f32)
  (x3 : Vec Ideal S512x512 .bf16)

/-- The mixed block: c08 * (seg * dcol) + c02 * h0. -/
def mixBlk : FVec Ideal S1000x512 .f32 :=
  addf (mulf (broadcast S1000x512 (Scalar.ofBits (F := Ideal) .f32 0x3F4CCCCD#32))
      (mulf (shapeCast S1000x512 x0 shapeCasts_S1000x512_S1000x512)
        (broadcastTo S1000x512 (shapeCast S1000x1 x1 shapeCasts_S1000x1_S1000x1) broadcasts_S1000x1_S1000x512)))
    (mulf (broadcast S1000x512 (Scalar.ofBits (F := Ideal) .f32 0x3E4CCCCD#32))
      (shapeCast S1000x512 x2 shapeCasts_S1000x512_S1000x512))

/-- What the body stores: max (c0 * o + c1 * (o wc)) c0 for the mixed block o. -/
def bodyTerm : FVec Ideal S1000x512 .f32 :=
  maximumf
    (addf (mulf (broadcast S1000x512 (Scalar.ofBits (F := Ideal) .f32 0x00000000#32)) (mixBlk x0 x1 x2))
      (mulf (broadcast S1000x512 (Scalar.ofBits (F := Ideal) .f32 0x3F800000#32))
        (matmul dot_S1000x512_S512x512_S1000x512_1_0_0_1_n_n none (truncf .bf16 (mixBlk x0 x1 x2) bitsLt_bf16_f32)
          (shapeCast S512x512 x3 shapeCasts_S512x512_S512x512 : FVec Ideal S512x512 .bf16) (constant S1000x512 .f32 0x00000000#32))))
    (broadcast S1000x512 (Scalar.ofBits (F := Ideal) .f32 0x00000000#32))

/-- The three printed bodies are this term. -/
theorem pay1_eq : Gen.k1_pay1 (F := Ideal) x0 x1 x2 x3 = bodyTerm x0 x1 x2 x3 := rfl
theorem pay2_eq : Gen.k2_pay1 (F := Ideal) x0 x1 x2 x3 = bodyTerm x0 x1 x2 x3 := rfl
theorem pay3_eq : Gen.k3_pay1 (F := Ideal) x0 x1 x2 x3 = bodyTerm x0 x1 x2 x3 := rfl

/-! ## Read at an entry -/

/-- The mixed block at row p, feature k. -/
theorem mixBlk_apply (p : Fin 1000) (k : Fin 512) :
    mixBlk x0 x1 x2 (ix2 p k) = mixRow (fun k => x0 (ix2 p k) * x1 (ix2 p (0 : Fin 1))) (fun k => x2 (ix2 p k)) k := by
  unfold mixBlk
  rw [shapeCast_self, shapeCast_self, shapeCast_self]
  show c08 * (x0 (ix2 p k) * broadcastTo S1000x512 x1 broadcasts_S1000x1_S1000x512 (ix2 p k)) + c02 * x2 (ix2 p k) = _
  rw [Cert.LibLayout.broadcastTo_a1_ab_apply]
  rfl

/-- The stored block at row p, feature q. -/
theorem bodyTerm_apply (p : Fin 1000) (q : Fin 512) :
    bodyTerm x0 x1 x2 x3 (ix2 p q)
      = headRow (mixRow (fun k => x0 (ix2 p k) * x1 (ix2 p (0 : Fin 1))) (fun k => x2 (ix2 p k))) x3 q := by
  unfold bodyTerm
  rw [shapeCast_self]
  show max (c0 * mixBlk x0 x1 x2 (ix2 p q)
      + c1 * FloatOps.matmul dot_S1000x512_S512x512_S1000x512_1_0_0_1_n_n none (truncf .bf16 (mixBlk x0 x1 x2) bitsLt_bf16_f32) (x3 : FVec Ideal S512x512 .bf16)
          (constant S1000x512 .f32 0x00000000#32) (ix2 p q)) c0 = _
  rw [Cert.LibPlainDot.matmul_zero_plain dot_S1000x512_S512x512_S1000x512_1_0_0_1_n_n rfl rfl lhs0 lhs1 rhs0 rhs1 none _ _ p q]
  unfold headRow
  simp only [truncf_apply, mixBlk_apply]

/-- A block entry against the whole-array combine step. If row p of the loaded blocks is row (rowOf i) of the arrays
    seg and h0, the loaded scale is that node's, the loaded weights are wc, and q is i's feature, then the stored block
    at (p, q) is the combine step's entry i. -/
theorem blk_eq (seg : NH.Idx → EReal) (dcol : NC.Idx → EReal) (h0 : NH.Idx → EReal) (wc : HH.Idx → EReal)
    (p : Fin 1000) (q : Fin 512) (i : NH.Idx)
    (e0 : ∀ k : Fin 512, x0 (ix2 p k) = seg (ix2 (rowOf i) k))
    (e1 : x1 (ix2 p (0 : Fin 1)) = dcol (ix2 (rowOf i) (0 : Fin 1)))
    (e2 : ∀ k : Fin 512, x2 (ix2 p k) = h0 (ix2 (rowOf i) k))
    (e3 : ∀ y : S512x512.Idx, x3 y = wc y)
    (eq : q = colOf i) :
    bodyTerm x0 x1 x2 x3 (ix2 p q) = combine seg dcol h0 wc i := by
  rw [bodyTerm_apply]
  unfold combine
  have ha : (fun k => x0 (ix2 p k) * x1 (ix2 p (0 : Fin 1))) = fun k => seg (ix2 (rowOf i) k) * dcol (ix2 (rowOf i) (0 : Fin 1)) :=
    funext fun k => by rw [e0 k, e1]
  have hb : (fun k => x2 (ix2 p k)) = fun k => h0 (ix2 (rowOf i) k) := funext e2
  have hw : (x3 : HH.Idx → EReal) = wc := funext e3
  rw [ha, hb, eq]
  exact congrArg (fun w => headRow _ w (colOf i)) hw

end Cert.KernelIdeal.CombineBody

end
-- ==== Proof.Reg1.lean ====
/-
  Region 1 of the kernel: what its output array holds when the region is left.

  The region walks a grid of 30 points; point t loads rows 1000 t to 1000 t + 999 of the edge sums, of the column of
  node scales and of the first layer's output, and the whole weight matrix, runs the combine body on them and writes
  the result back to the same rows of the output array. The blocks of the 30 points tile the array, and what a point
  writes is that block of ONE whole-array function of the arrays the region found on entry (the spec's combine step),
  because the body's row p depends only on row p of what it loaded. So the output array ends holding that function.
-/
import proofs.«150130_j30382598652516_2_alg».proof.Proof.Gen.KernelIdeal.Frame
import proofs.«150130_j30382598652516_2_alg».proof.Proof.CombineBody

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows are at block t, the weight matrix at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the combine step of the arrays as the region found them. -/
theorem flushed_eq (c : Dev nD) (t : Fin cfg1.N) :
    (dat1 (F := Ideal) V c).flushed 4 t = ((cfg1.win 4).blk t).view.read (Elt Ideal)
      (combine (V c main_v43) (V c main_v23) (V c main_v12) (V c main_v24)) := by
  show (cfg1.win 4).cut (grid1.coords t) ((dat1 V c).after 4 t) = _
  rw [after1_4]
  unfold out1_4
  rw [View.canon_unit_zero zero_offsets]
  simp only [View.ld_unit_zero (S := S1000x512) zero_offsets, View.ld_unit_zero (S := S1000x1) zero_offsets,
    View.ld_unit_zero (S := S512x512) zero_offsets]
  rw [CombineBody.pay1_eq]
  obtain ⟨a00, a01, a10, a11, a20, a21, a30, a31, a40, a41⟩ := idx_facts t
  funext j
  have hj0 : (j 0).val < 1000 := (j 0).isLt
  have hj1 : (j 1).val < 512 := (j 1).isLt
  refine (congrArg (CombineBody.bodyTerm _ _ _ _) (eq_ix2 (n0 := 1000) (n1 := 512) j)).trans ?_
  refine CombineBody.blk_eq _ _ _ _ _ _ _ _ (j 0) (j 1) (((cfg1.win 4).blk t).view.emb j) (fun k => ?_) ?_ (fun k => ?_) (fun y => ?_) ?_
  · show V c main_v43 (((cfg1.win 0).blk t).view.emb (ix2 (j 0) k)) = V c main_v43 _
    refine congrArg (V c main_v43) (funext fun a => Fin.ext ?_)
    match a with
    | ⟨0, _⟩ => show win1_0.index t (0 : Fin 2) * 1000 + 1 * (j 0).val = win1_4.index t (0 : Fin 2) * 1000 + 1 * (j 0).val; omega
    | ⟨1, _⟩ => show win1_0.index t (1 : Fin 2) * 512 + 1 * k.val = k.val; omega
  · show V c main_v23 (((cfg1.win 1).blk t).view.emb (ix2 (j 0) (0 : Fin 1))) = V c main_v23 _
    refine congrArg (V c main_v23) (funext fun a => Fin.ext ?_)
    match a with
    | ⟨0, _⟩ => show win1_1.index t (0 : Fin 2) * 1000 + 1 * (j 0).val = win1_4.index t (0 : Fin 2) * 1000 + 1 * (j 0).val; omega
    | ⟨1, _⟩ => show win1_1.index t (1 : Fin 2) * 1 + 1 * 0 = 0; omega
  · show V c main_v12 (((cfg1.win 2).blk t).view.emb (ix2 (j 0) k)) = V c main_v12 _
    refine congrArg (V c main_v12) (funext fun a => Fin.ext ?_)
    match a with
    | ⟨0, _⟩ => show win1_2.index t (0 : Fin 2) * 1000 + 1 * (j 0).val = win1_4.index t (0 : Fin 2) * 1000 + 1 * (j 0).val; omega
    | ⟨1, _⟩ => show win1_2.index t (1 : Fin 2) * 512 + 1 * k.val = k.val; omega
  · show V c main_v24 (((cfg1.win 3).blk t).view.emb y) = V c main_v24 y
    refine congrArg (V c main_v24) (funext fun a => Fin.ext ?_)
    have hy0 : (y 0).val < 512 := (y 0).isLt
    have hy1 : (y 1).val < 512 := (y 1).isLt
    match a with
    | ⟨0, _⟩ => show win1_3.index t (0 : Fin 2) * 512 + 1 * (y 0).val = (y 0).val; omega
    | ⟨1, _⟩ => show win1_3.index t (1 : Fin 2) * 512 + 1 * (y 1).val = (y 1).val; omega
  · refine Fin.ext ?_
    show (j 1).val = win1_4.index t (1 : Fin 2) * 512 + 1 * (j 1).val
    omega

/-- An index of the output array is in point t's block iff each coordinate is in the block's range on its axis. -/
theorem mem_blk (t : Fin cfg1.N) (i : S30000x512.Idx) :
    i ∈ ((cfg1.win 4).blk t).view.set ↔ ∀ a : Fin 2, win1_4.index t a * S1000x512.size a ≤ (i a).val
      ∧ (i a).val < win1_4.index t a * S1000x512.size a + S1000x512.size a := by
  show i ∈ ((View.whole main_v44).slice (win1_4.rect t)).set ↔ _
  rw [View.set_slice_whole, Rect.mem_set_unit]
  exact Iff.rfl

/-- Every index of the output array is in some point's block: the point of row r is r / 1000. -/
theorem cover (i : S30000x512.Idx) :
    ∃ t : Fin cfg1.N, (cfg1.win 4).flush t = true ∧ i ∈ ((cfg1.win 4).blk t).view.set := by
  have hi0 : (i 0).val < 30000 := (i 0).isLt
  have hi1 : (i 1).val < 512 := (i 1).isLt
  have hN : cfg1.N = 30 := N_1
  let t : Fin cfg1.N := ⟨(i 0).val / 1000, by rw [hN]; omega⟩
  obtain ⟨a00, a01, a10, a11, a20, a21, a30, a31, a40, a41⟩ := idx_facts t
  have ht : t.val = (i 0).val / 1000 := rfl
  refine ⟨t, flush1_4 t, ?_⟩
  rw [mem_blk]
  intro a
  match a with
  | ⟨0, _⟩ => show win1_4.index t (0 : Fin 2) * 1000 ≤ (i 0).val ∧ (i 0).val < win1_4.index t (0 : Fin 2) * 1000 + 1000; omega
  | ⟨1, _⟩ => show win1_4.index t (1 : Fin 2) * 512 ≤ (i 1).val ∧ (i 1).val < win1_4.index t (1 : Fin 2) * 512 + 512; omega

/-- The output array after the region: the combine step of the arrays the region found. -/
theorem out_eq (c : Dev nD) :
    (dat1 (F := Ideal) V c).arrAt 4 cfg1.N = combine (V c main_v43) (V c main_v23) (V c main_v12) (V c main_v24) :=
  (dat1 (F := Ideal) V c).arrAt_eq_of_cover 4 _ (fun t _ => flushed_eq V c t) cover

end Cert.KernelIdeal.Reg1

end
-- ==== Proof.Reg2.lean ====
/-
  Region 2 of the kernel: what its output array holds when the region is left.

  The region walks a grid of 30 points; point t loads rows 1000 t to 1000 t + 999 of the edge sums, of the column of
  node scales and of the first layer's output, and the whole weight matrix, runs the combine body on them and writes
  the result back to the same rows of the output array. The blocks of the 30 points tile the array, and what a point
  writes is that block of ONE whole-array function of the arrays the region found on entry (the spec's combine step),
  because the body's row p depends only on row p of what it loaded. So the output array ends holding that function.
-/
import proofs.«150130_j30382598652516_2_alg».proof.Proof.Gen.KernelIdeal.Frame
import proofs.«150130_j30382598652516_2_alg».proof.Proof.CombineBody

set_option maxRecDepth 16384

noncomputable section

namespace Cert.KernelIdeal.Reg2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows are at block t, the weight matrix at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of the combine step of the arrays as the region found them. -/
theorem flushed_eq (c : Dev nD) (t : Fin cfg2.N) :
    (dat2 (F := Ideal) V c).flushed 4 t = ((cfg2.win 4).blk t).view.read (Elt Ideal)
      (combine (V c main_v61) (V c main_v23) (V c main_v12) (V c main_v25)) := by
  show (cfg2.win 4).cut (grid2.coords t) ((dat2 V c).after 4 t) = _
  rw [after2_4]
  unfold out2_4
  rw [View.canon_unit_zero zero_offsets]
  simp only [View.ld_unit_zero (S := S1000x512) zero_offsets, View.ld_unit_zero (S := S1000x1) zero_offsets,
    View.ld_unit_zero (S := S512x512) zero_offsets]
  rw [CombineBody.pay2_eq]
  obtain ⟨a00, a01, a10, a11, a20, a21, a30, a31, a40, a41⟩ := idx_facts t
  funext j
  have hj0 : (j 0).val < 1000 := (j 0).isLt
  have hj1 : (j 1).val < 512 := (j 1).isLt
  refine (congrArg (CombineBody.bodyTerm _ _ _ _) (eq_ix2 (n0 := 1000) (n1 := 512) j)).trans ?_
  refine CombineBody.blk_eq _ _ _ _ _ _ _ _ (j 0) (j 1) (((cfg2.win 4).blk t).view.emb j) (fun k => ?_) ?_ (fun k => ?_) (fun y => ?_) ?_
  · show V c main_v61 (((cfg2.win 0).blk t).view.emb (ix2 (j 0) k)) = V c main_v61 _
    refine congrArg (V c main_v61) (funext fun a => Fin.ext ?_)
    match a with
    | ⟨0, _⟩ => show win2_0.index t (0 : Fin 2) * 1000 + 1 * (j 0).val = win2_4.index t (0 : Fin 2) * 1000 + 1 * (j 0).val; omega
    | ⟨1, _⟩ => show win2_0.index t (1 : Fin 2) * 512 + 1 * k.val = k.val; omega
  · show V c main_v23 (((cfg2.win 1).blk t).view.emb (ix2 (j 0) (0 : Fin 1))) = V c main_v23 _
    refine congrArg (V c main_v23) (funext fun a => Fin.ext ?_)
    match a with
    | ⟨0, _⟩ => show win2_1.index t (0 : Fin 2) * 1000 + 1 * (j 0).val = win2_4.index t (0 : Fin 2) * 1000 + 1 * (j 0).val; omega
    | ⟨1, _⟩ => show win2_1.index t (1 : Fin 2) * 1 + 1 * 0 = 0; omega
  · show V c main_v12 (((cfg2.win 2).blk t).view.emb (ix2 (j 0) k)) = V c main_v12 _
    refine congrArg (V c main_v12) (funext fun a => Fin.ext ?_)
    match a with
    | ⟨0, _⟩ => show win2_2.index t (0 : Fin 2) * 1000 + 1 * (j 0).val = win2_4.index t (0 : Fin 2) * 1000 + 1 * (j 0).val; omega
    | ⟨1, _⟩ => show win2_2.index t (1 : Fin 2) * 512 + 1 * k.val = k.val; omega
  · show V c main_v25 (((cfg2.win 3).blk t).view.emb y) = V c main_v25 y
    refine congrArg (V c main_v25) (funext fun a => Fin.ext ?_)
    have hy0 : (y 0).val < 512 := (y 0).isLt
    have hy1 : (y 1).val < 512 := (y 1).isLt
    match a with
    | ⟨0, _⟩ => show win2_3.index t (0 : Fin 2) * 512 + 1 * (y 0).val = (y 0).val; omega
    | ⟨1, _⟩ => show win2_3.index t (1 : Fin 2) * 512 + 1 * (y 1).val = (y 1).val; omega
  · refine Fin.ext ?_
    show (j 1).val = win2_4.index t (1 : Fin 2) * 512 + 1 * (j 1).val
    omega

/-- An index of the output array is in point t's block iff each coordinate is in the block's range on its axis. -/
theorem mem_blk (t : Fin cfg2.N) (i : S30000x512.Idx) :
    i ∈ ((cfg2.win 4).blk t).view.set ↔ ∀ a : Fin 2, win2_4.index t a * S1000x512.size a ≤ (i a).val
      ∧ (i a).val < win2_4.index t a * S1000x512.size a + S1000x512.size a := by
  show i ∈ ((View.whole main_v62).slice (win2_4.rect t)).set ↔ _
  rw [View.set_slice_whole, Rect.mem_set_unit]
  exact Iff.rfl

/-- Every index of the output array is in some point's block: the point of row r is r / 1000. -/
theorem cover (i : S30000x512.Idx) :
    ∃ t : Fin cfg2.N, (cfg2.win 4).flush t = true ∧ i ∈ ((cfg2.win 4).blk t).view.set := by
  have hi0 : (i 0).val < 30000 := (i 0).isLt
  have hi1 : (i 1).val < 512 := (i 1).isLt
  have hN : cfg2.N = 30 := N_2
  let t : Fin cfg2.N := ⟨(i 0).val / 1000, by rw [hN]; omega⟩
  obtain ⟨a00, a01, a10, a11, a20, a21, a30, a31, a40, a41⟩ := idx_facts t
  have ht : t.val = (i 0).val / 1000 := rfl
  refine ⟨t, flush2_4 t, ?_⟩
  rw [mem_blk]
  intro a
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 512 ≤ (i 1).val ∧ (i 1).val < win2_4.index t (1 : Fin 2) * 512 + 512; omega

/-- The output array after the region: the combine step of the arrays the region found. -/
theorem out_eq (c : Dev nD) :
    (dat2 (F := Ideal) V c).arrAt 4 cfg2.N = combine (V c main_v61) (V c main_v23) (V c main_v12) (V c main_v25) :=
  (dat2 (F := Ideal) V c).arrAt_eq_of_cover 4 _ (fun t _ => flushed_eq V c t) cover

end Cert.KernelIdeal.Reg2

end
-- ==== Proof.Reg3.lean ====
/-
  Region 3 of the kernel: what its output array holds when the region is left.

  The region walks a grid of 30 points; point t loads rows 1000 t to 1000 t + 999 of the edge sums, of the column of
  node scales and of the first layer's output, and the whole weight matrix, runs the combine body on them and writes
  the result back to the same rows of the output array. The blocks of the 30 points tile the array, and what a point
  writes is that block of ONE whole-array function of the arrays the region found on entry (the spec's combine step),
  because the body's row p depends only on row p of what it loaded. So the output array ends holding that function.
-/
import proofs.«150130_j30382598652516_2_alg».proof.Proof.Gen.KernelIdeal.Frame
import proofs.«150130_j30382598652516_2_alg».proof.Proof.CombineBody

set_option maxRecDepth 16384

noncomputable section

namespace Cert.KernelIdeal.Reg3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row-blocked windows are at block t, the weight matrix at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the combine step of the arrays as the region found them. -/
theorem flushed_eq (c : Dev nD) (t : Fin cfg3.N) :
    (dat3 (F := Ideal) V c).flushed 4 t = ((cfg3.win 4).blk t).view.read (Elt Ideal)
      (combine (V c main_v79) (V c main_v23) (V c main_v12) (V c main_v26)) := by
  show (cfg3.win 4).cut (grid3.coords t) ((dat3 V c).after 4 t) = _
  rw [after3_4]
  unfold out3_4
  rw [View.canon_unit_zero zero_offsets]
  simp only [View.ld_unit_zero (S := S1000x512) zero_offsets, View.ld_unit_zero (S := S1000x1) zero_offsets,
    View.ld_unit_zero (S := S512x512) zero_offsets]
  rw [CombineBody.pay3_eq]
  obtain ⟨a00, a01, a10, a11, a20, a21, a30, a31, a40, a41⟩ := idx_facts t
  funext j
  have hj0 : (j 0).val < 1000 := (j 0).isLt
  have hj1 : (j 1).val < 512 := (j 1).isLt
  refine (congrArg (CombineBody.bodyTerm _ _ _ _) (eq_ix2 (n0 := 1000) (n1 := 512) j)).trans ?_
  refine CombineBody.blk_eq _ _ _ _ _ _ _ _ (j 0) (j 1) (((cfg3.win 4).blk t).view.emb j) (fun k => ?_) ?_ (fun k => ?_) (fun y => ?_) ?_
  · show V c main_v79 (((cfg3.win 0).blk t).view.emb (ix2 (j 0) k)) = V c main_v79 _
    refine congrArg (V c main_v79) (funext fun a => Fin.ext ?_)
    match a with
    | ⟨0, _⟩ => show win3_0.index t (0 : Fin 2) * 1000 + 1 * (j 0).val = win3_4.index t (0 : Fin 2) * 1000 + 1 * (j 0).val; omega
    | ⟨1, _⟩ => show win3_0.index t (1 : Fin 2) * 512 + 1 * k.val = k.val; omega
  · show V c main_v23 (((cfg3.win 1).blk t).view.emb (ix2 (j 0) (0 : Fin 1))) = V c main_v23 _
    refine congrArg (V c main_v23) (funext fun a => Fin.ext ?_)
    match a with
    | ⟨0, _⟩ => show win3_1.index t (0 : Fin 2) * 1000 + 1 * (j 0).val = win3_4.index t (0 : Fin 2) * 1000 + 1 * (j 0).val; omega
    | ⟨1, _⟩ => show win3_1.index t (1 : Fin 2) * 1 + 1 * 0 = 0; omega
  · show V c main_v12 (((cfg3.win 2).blk t).view.emb (ix2 (j 0) k)) = V c main_v12 _
    refine congrArg (V c main_v12) (funext fun a => Fin.ext ?_)
    match a with
    | ⟨0, _⟩ => show win3_2.index t (0 : Fin 2) * 1000 + 1 * (j 0).val = win3_4.index t (0 : Fin 2) * 1000 + 1 * (j 0).val; omega
    | ⟨1, _⟩ => show win3_2.index t (1 : Fin 2) * 512 + 1 * k.val = k.val; omega
  · show V c main_v26 (((cfg3.win 3).blk t).view.emb y) = V c main_v26 y
    refine congrArg (V c main_v26) (funext fun a => Fin.ext ?_)
    have hy0 : (y 0).val < 512 := (y 0).isLt
    have hy1 : (y 1).val < 512 := (y 1).isLt
    match a with
    | ⟨0, _⟩ => show win3_3.index t (0 : Fin 2) * 512 + 1 * (y 0).val = (y 0).val; omega
    | ⟨1, _⟩ => show win3_3.index t (1 : Fin 2) * 512 + 1 * (y 1).val = (y 1).val; omega
  · refine Fin.ext ?_
    show (j 1).val = win3_4.index t (1 : Fin 2) * 512 + 1 * (j 1).val
    omega

/-- An index of the output array is in point t's block iff each coordinate is in the block's range on its axis. -/
theorem mem_blk (t : Fin cfg3.N) (i : S30000x512.Idx) :
    i ∈ ((cfg3.win 4).blk t).view.set ↔ ∀ a : Fin 2, win3_4.index t a * S1000x512.size a ≤ (i a).val
      ∧ (i a).val < win3_4.index t a * S1000x512.size a + S1000x512.size a := by
  show i ∈ ((View.whole main_v80).slice (win3_4.rect t)).set ↔ _
  rw [View.set_slice_whole, Rect.mem_set_unit]
  exact Iff.rfl

/-- Every index of the output array is in some point's block: the point of row r is r / 1000. -/
theorem cover (i : S30000x512.Idx) :
    ∃ t : Fin cfg3.N, (cfg3.win 4).flush t = true ∧ i ∈ ((cfg3.win 4).blk t).view.set := by
  have hi0 : (i 0).val < 30000 := (i 0).isLt
  have hi1 : (i 1).val < 512 := (i 1).isLt
  have hN : cfg3.N = 30 := N_3
  let t : Fin cfg3.N := ⟨(i 0).val / 1000, by rw [hN]; omega⟩
  obtain ⟨a00, a01, a10, a11, a20, a21, a30, a31, a40, a41⟩ := idx_facts t
  have ht : t.val = (i 0).val / 1000 := rfl
  refine ⟨t, flush3_4 t, ?_⟩
  rw [mem_blk]
  intro a
  match a with
  | ⟨0, _⟩ => show win3_4.index t (0 : Fin 2) * 1000 ≤ (i 0).val ∧ (i 0).val < win3_4.index t (0 : Fin 2) * 1000 + 1000; omega
  | ⟨1, _⟩ => show win3_4.index t (1 : Fin 2) * 512 ≤ (i 1).val ∧ (i 1).val < win3_4.index t (1 : Fin 2) * 512 + 512; omega

/-- The output array after the region: the combine step of the arrays the region found. -/
theorem out_eq (c : Dev nD) :
    (dat3 (F := Ideal) V c).arrAt 4 cfg3.N = combine (V c main_v79) (V c main_v23) (V c main_v12) (V c main_v26) :=
  (dat3 (F := Ideal) V c).arrAt_eq_of_cover 4 _ (fun t _ => flushed_eq V c t) cover

end Cert.KernelIdeal.Reg3

end
-- ==== Proof.KFoldB.lean ====
/-
  The kernel's buffers from its second region to the end, and the value of its result.

  Each of the three later regions finds, on entry, an edge stage seg of the previous layer's result, the column of node
  scales, the first layer h0 and its narrowed weight matrix, and leaves the spec's combine step of them in its output
  array, its input arrays untouched. The stretch after it scales that output, gathers, weights and adds up again: the
  next edge stage. So the result buffer ends at three nested combine steps over three nested edge stages, starting
  from h0.
-/
import proofs.«150130_j30382598652516_2_alg».proof.Proof.KFoldA
import proofs.«150130_j30382598652516_2_alg».proof.Proof.Reg1
import proofs.«150130_j30382598652516_2_alg».proof.Proof.Reg2
import proofs.«150130_j30382598652516_2_alg».proof.Proof.Reg3

set_option maxRecDepth 16384

noncomputable section

namespace Cert.KernelIdeal.KFoldB

open Idealize.ShloMosaic Idealize.ShloMosaic.TcCoe Idealize.SL.Sem Idealize.ShloMosaic.StableHlo
open Cert.KernelIdeal Cert.KernelIdeal.Gen Cert.KernelIdeal.KTerms Cert.KernelIdeal.KFoldA Cert.GcnSpec

variable (m : (ℓ : Loc nD τ sig) → Buf (Elt Ideal) ℓ) (ρ : Dev nD → PrngReg) (c : Dev nD)

/-- The first layer after h0. -/
def k1 : FVec Ideal S30000x512 .f32 := combine (segOf (h0C m c) (dcolC m c) (rowWOf (rowC m c)) (colBOf (colC m c)) (wC m c)) (dcolC m c) (h0C m c) (wc1C m c)
/-- The second. -/
def k2 : FVec Ideal S30000x512 .f32 := combine (segOf (k1 m c) (dcolC m c) (rowWOf (rowC m c)) (colBOf (colC m c)) (wC m c)) (dcolC m c) (h0C m c) (wc2C m c)
/-- The third: the program's result. -/
def k3 : FVec Ideal S30000x512 .f32 := combine (segOf (k2 m c) (dcolC m c) (rowWOf (rowC m c)) (colBOf (colC m c)) (wC m c)) (dcolC m c) (h0C m c) (wc3C m c)

/-! ## Leaving region 1 -/

theorem v44_at8 : V8 m ρ c main_v44 = k1 m c :=
  (W8_arr m ρ c 4).trans ((Reg1.out_eq (V7 m ρ) c).trans (by rw [v43_at7, v23_at7, v12_at7, v24_at7]; rfl))
theorem v23_at8 : V8 m ρ c main_v23 = dcolC m c :=
  (W8_arr m ρ c 1).trans (((dat1 (F := Ideal) (V7 m ρ) c).arrAt_in 1 rfl cfg1.N).trans ((A_eq1 (V7 m ρ) c 1).trans (v23_at7 m ρ c)))
theorem v12_at8 : V8 m ρ c main_v12 = h0C m c :=
  (W8_arr m ρ c 2).trans (((dat1 (F := Ideal) (V7 m ρ) c).arrAt_in 2 rfl cfg1.N).trans ((A_eq1 (V7 m ρ) c 2).trans (v12_at7 m ρ c)))
theorem v1_at8 : V8 m ρ c main_v1 = rowC m c :=
  (W8_of_ne m ρ c main_v1 (by decide)).trans (v1_at7 m ρ c)
theorem v3_at8 : V8 m ρ c main_v3 = colC m c :=
  (W8_of_ne m ρ c main_v3 (by decide)).trans (v3_at7 m ρ c)
theorem v7_at8 : V8 m ρ c main_v7 = wC m c :=
  (W8_of_ne m ρ c main_v7 (by decide)).trans (v7_at7 m ρ c)
theorem v25_at8 : V8 m ρ c main_v25 = wc2C m c :=
  (W8_of_ne m ρ c main_v25 (by decide)).trans (v25_at7 m ρ c)
theorem v26_at8 : V8 m ρ c main_v26 = wc3C m c :=
  (W8_of_ne m ρ c main_v26 (by decide)).trans (v26_at7 m ρ c)

/-! ## The stretch before the next region -/

theorem v61_at9 : V9 m ρ c main_v61 = segOf (k1 m c) (dcolC m c) (rowWOf (rowC m c)) (colBOf (colC m c)) (wC m c) := by
  have e : V9 m ρ c main_v61 = segOf (V8 m ρ c main_v44) (V8 m ρ c main_v23) (rowWOf (V8 m ρ c main_v1))
      (colBOf (V8 m ρ c main_v3)) (V8 m ρ c main_v7) := by
    show W9 m ρ c (Proc.devRef .tc main_v61) = _
    simp only [W9, hostOps2]
    after_results_simp
    rfl
  rw [e, v44_at8, v23_at8, v1_at8, v3_at8, v7_at8]
theorem v23_at9 : V9 m ρ c main_v23 = dcolC m c := by
  have e : V9 m ρ c main_v23 = V8 m ρ c main_v23 := by
    show W9 m ρ c (Proc.devRef .tc main_v23) = _
    simp only [W9, hostOps2]
    after_results_simp
  rw [e, v23_at8]
theorem v12_at9 : V9 m ρ c main_v12 = h0C m c := by
  have e : V9 m ρ c main_v12 = V8 m ρ c main_v12 := by
    show W9 m ρ c (Proc.devRef .tc main_v12) = _
    simp only [W9, hostOps2]
    after_results_simp
  rw [e, v12_at8]
theorem v25_at9 : V9 m ρ c main_v25 = wc2C m c := by
  have e : V9 m ρ c main_v25 = V8 m ρ c main_v25 := by
    show W9 m ρ c (Proc.devRef .tc main_v25) = _
    simp only [W9, hostOps2]
    after_results_simp
  rw [e, v25_at8]
theorem v26_at9 : V9 m ρ c main_v26 = wc3C m c := by
  have e : V9 m ρ c main_v26 = V8 m ρ c main_v26 := by
    show W9 m ρ c (Proc.devRef .tc main_v26) = _
    simp only [W9, hostOps2]
    after_results_simp
  rw [e, v26_at8]
theorem v1_at9 : V9 m ρ c main_v1 = rowC m c := by
  have e : V9 m ρ c main_v1 = V8 m ρ c main_v1 := by
    show W9 m ρ c (Proc.devRef .tc main_v1) = _
    simp only [W9, hostOps2]
    after_results_simp
  rw [e, v1_at8]
theorem v3_at9 : V9 m ρ c main_v3 = colC m c := by
  have e : V9 m ρ c main_v3 = V8 m ρ c main_v3 := by
    show W9 m ρ c (Proc.devRef .tc main_v3) = _
    simp only [W9, hostOps2]
    after_results_simp
  rw [e, v3_at8]
theorem v7_at9 : V9 m ρ c main_v7 = wC m c := by
  have e : V9 m ρ c main_v7 = V8 m ρ c main_v7 := by
    show W9 m ρ c (Proc.devRef .tc main_v7) = _
    simp only [W9, hostOps2]
    after_results_simp
  rw [e, v7_at8]

/-! ## Leaving region 2 -/

theorem v62_at10 : V10 m ρ c main_v62 = k2 m c :=
  (W10_arr m ρ c 4).trans ((Reg2.out_eq (V9 m ρ) c).trans (by rw [v61_at9, v23_at9, v12_at9, v25_at9]; rfl))
theorem v23_at10 : V10 m ρ c main_v23 = dcolC m c :=
  (W10_arr m ρ c 1).trans (((dat2 (F := Ideal) (V9 m ρ) c).arrAt_in 1 rfl cfg2.N).trans ((A_eq2 (V9 m ρ) c 1).trans (v23_at9 m ρ c)))
theorem v12_at10 : V10 m ρ c main_v12 = h0C m c :=
  (W10_arr m ρ c 2).trans (((dat2 (F := Ideal) (V9 m ρ) c).arrAt_in 2 rfl cfg2.N).trans ((A_eq2 (V9 m ρ) c 2).trans (v12_at9 m ρ c)))
theorem v1_at10 : V10 m ρ c main_v1 = rowC m c :=
  (W10_of_ne m ρ c main_v1 (by decide)).trans (v1_at9 m ρ c)
theorem v3_at10 : V10 m ρ c main_v3 = colC m c :=
  (W10_of_ne m ρ c main_v3 (by decide)).trans (v3_at9 m ρ c)
theorem v7_at10 : V10 m ρ c main_v7 = wC m c :=
  (W10_of_ne m ρ c main_v7 (by decide)).trans (v7_at9 m ρ c)
theorem v26_at10 : V10 m ρ c main_v26 = wc3C m c :=
  (W10_of_ne m ρ c main_v26 (by decide)).trans (v26_at9 m ρ c)

/-! ## The stretch before the next region -/

theorem v79_at11 : V11 m ρ c main_v79 = segOf (k2 m c) (dcolC m c) (rowWOf (rowC m c)) (colBOf (colC m c)) (wC m c) := by
  have e : V11 m ρ c main_v79 = segOf (V10 m ρ c main_v62) (V10 m ρ c main_v23) (rowWOf (V10 m ρ c main_v1))
      (colBOf (V10 m ρ c main_v3)) (V10 m ρ c main_v7) := by
    show W11 m ρ c (Proc.devRef .tc main_v79) = _
    simp only [W11, hostOps3]
    after_results_simp
    rfl
  rw [e, v62_at10, v23_at10, v1_at10, v3_at10, v7_at10]
theorem v23_at11 : V11 m ρ c main_v23 = dcolC m c := by
  have e : V11 m ρ c main_v23 = V10 m ρ c main_v23 := by
    show W11 m ρ c (Proc.devRef .tc main_v23) = _
    simp only [W11, hostOps3]
    after_results_simp
  rw [e, v23_at10]
theorem v12_at11 : V11 m ρ c main_v12 = h0C m c := by
  have e : V11 m ρ c main_v12 = V10 m ρ c main_v12 := by
    show W11 m ρ c (Proc.devRef .tc main_v12) = _
    simp only [W11, hostOps3]
    after_results_simp
  rw [e, v12_at10]
theorem v26_at11 : V11 m ρ c main_v26 = wc3C m c := by
  have e : V11 m ρ c main_v26 = V10 m ρ c main_v26 := by
    show W11 m ρ c (Proc.devRef .tc main_v26) = _
    simp only [W11, hostOps3]
    after_results_simp
  rw [e, v26_at10]

/-! ## Leaving the last region -/

/-- The result buffer at the end of the run. -/
theorem value : V12 m ρ c main_v80 = k3 m c :=
  (W12_arr m ρ c 4).trans ((Reg3.out_eq (V11 m ρ) c).trans (by rw [v79_at11, v23_at11, v12_at11, v26_at11]; rfl))

end Cert.KernelIdeal.KFoldB

end
-- ==== Proof.SpecEdges.lean ====
/-
  Edges, from the two index columns both programs build.

  A column colB of 240000 destination indices and a column rowW of 240000 source indices (32-bit words) determine:
  * landOf colB n, the edges whose destination index, read as a signed integer, is n: a scatter-add sends edge e's
    update to row colB e and drops it when that is no row, so these are exactly the edges added into row n;
  * srcOf rowW e, the row a gather reads for edge e: the source index read as a signed integer and clamped into
    [0, 29999].
-/
import proofs.«150130_j30382598652516_2_alg».proof.Proof.Spec

noncomputable section

namespace Cert.GcnSpec

open Idealize.ShloMosaic Idealize.ShloMosaic.ValueIdx

/-- A column of 240000 indices. -/
abbrev EC : Shape := ⟨2, ![240000, 1]⟩

/-- The edges that land on node n. -/
def landOf (colB : IVec EC 32) (n : Fin 30000) : Finset (Fin 240000) :=
  Finset.univ.filter (fun e : Fin 240000 => (colB (ix2 e (0 : Fin 1))).toInt = (n.val : Int))

/-- The node a gather reads for edge e. -/
def srcOf (rowW : IVec EC 32) (e : Fin 240000) : Fin 30000 :=
  ⟨min (rowW (ix2 e (0 : Fin 1))).toInt.toNat (30000 - 1), by omega⟩

end Cert.GcnSpec

end
-- ==== Proof.LibRowGatherScatter.lean ====
/-
  ROW GATHER AND ROW SCATTER-ADD READ AT AN INDEX, for any extents.

  For an operand of shape [R, C], an integer array of row indices of shape [N, 1] and a result / updates array of
  shape [N, C]:
  * the row gather h[s] (offset_dims [1], collapsed_slice_dims [0], start_index_map [0], index_vector_dim 1,
    slice_sizes [1, C]) at (e, k) is the operand at row s[e, 0] — read as a signed integer and clamped into
    [0, R − 1] — and column k (rowGather_apply);
  * the row scatter-add (segment sum: update_window_dims [1], inserted_window_dims [0],
    scatter_dims_to_operand_dims [0], index_vector_dim 1) sends update (e, k) to operand index (s[e, 0], k), the row
    read signed and NOT clamped, the update dropped when that row is outside [0, R) (rowScatter_resultIdx); so at the
    exact (extended-real) instance its result at (n, k) is the operand's element plus the sum of the updates
    upd[e, k] over the rows e with s[e, 0] = n (rowScatterAdd_apply).
-/
import Idealize.ShloMosaic.PureOps.Ideal.Laws
import Idealize.ShloMosaic.Lib.ValueIdx

noncomputable section

open scoped BigOperators

namespace Cert.LibRowGatherScatter

open Idealize.ShloMosaic Idealize.ShloMosaic.ValueIdx

/-! ## The row scatter-add -/

/-- The row scatter-add (a segment sum over rows): update_window_dims [1], inserted_window_dims [0],
    scatter_dims_to_operand_dims [0], index_vector_dim 1, for an operand [R, C], scatter indices [N, 1] and updates
    [N, C]. -/
abbrev rowScatterDims (R C N : Nat) (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ where
  updateWindowDims := [1]
  insertedWindowDims := [0]
  scatterDimsToOperandDims := [0]
  indexVectorDim := 1
  wf := wf

section Scatter
variable {R C N w : Nat} (wf : ScatterDims.WF ⟨2, ![R, C]⟩ ⟨2, ![N, 1]⟩ ⟨2, ![N, C]⟩ [1] [0] [0] 1)

/-- On the row axis the window of update (e, k) starts at the scatter index s[e, 0], read as a signed integer. -/
theorem rowScatter_start0 (idx : IVec ⟨2, ![N, 1]⟩ w) (e : Fin N) (k : Fin C) :
    (rowScatterDims R C N wf).start (ix2 e k) idx (0 : Fin 2) = (idx (ix2 e (0 : Fin 1))).toInt := by
  unfold ScatterDims.start
  rw [dif_pos (show (0 : Fin 2) ∈ (rowScatterDims R C N wf).scatterDimsToOperandDims from List.mem_singleton.mpr rfl)]
  have hsi : (rowScatterDims R C N wf).siIdx (ix2 e k) ⟨List.idxOf (0 : Fin 2) (rowScatterDims R C N wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the window starts at 0. -/
theorem rowScatter_start1 (idx : IVec ⟨2, ![N, 1]⟩ w) (e : Fin N) (k : Fin C) :
    (rowScatterDims R C N wf).start (ix2 e k) idx (1 : Fin 2) = 0 := by
  unfold ScatterDims.start
  rw [dif_neg (show (1 : Fin 2) ∉ (rowScatterDims R C N wf).scatterDimsToOperandDims from
    (show (1 : Fin 2) ∉ [(0 : Fin 2)] by decide))]

/-- The row axis is an inserted window axis: the window coordinate of update (e, k) there is 0. -/
theorem rowScatter_window0 (e : Fin N) (k : Fin C) :
    (rowScatterDims R C N wf).window (ix2 e k) (0 : Fin 2) = 0 := by
  unfold ScatterDims.window
  rw [dif_neg (show (0 : Fin 2) ∉ (rowScatterDims R C N wf).sKept from
    (show (0 : Fin 2) ∉ [(1 : Fin 2)] by decide))]

/-- The column axis is the one window axis: the window coordinate of update (e, k) there is k. -/
theorem rowScatter_window1 (e : Fin N) (k : Fin C) :
    (rowScatterDims R C N wf).window (ix2 e k) (1 : Fin 2) = k.val := by
  unfold ScatterDims.window
  rw [dif_pos (show (1 : Fin 2) ∈ (rowScatterDims R C N wf).sKept from
    (show (1 : Fin 2) ∈ [(1 : Fin 2)] by decide))]
  rfl

/-- WHERE AN UPDATE LANDS: update (e, k) lands at operand index (n, k') exactly when the scatter index s[e, 0], read
    as a signed integer and not clamped, is n, and k = k'. (An update whose row is outside [0, R) lands nowhere.) -/
theorem rowScatter_resultIdx (idx : IVec ⟨2, ![N, 1]⟩ w) (e : Fin N) (k : Fin C) (n : Fin R) (k' : Fin C) :
    (rowScatterDims R C N wf).resultIdx? (ix2 e k) idx = some (ix2 n k')
      ↔ (idx (ix2 e (0 : Fin 1))).toInt = (n.val : Int) ∧ k = k' := by
  have hs0 := rowScatter_start0 wf idx e k
  have hs1 := rowScatter_start1 wf idx e k
  have hw0 := rowScatter_window0 wf e k
  have hw1 := rowScatter_window1 wf e k
  unfold ScatterDims.resultIdx?
  split
  · rename_i h
    rw [Option.some.injEq]
    have h00 := h (0 : Fin 2)
    rw [hs0, hw0] at h00
    constructor
    · intro hEq
      have h0 : ((rowScatterDims R C N wf).start (ix2 e k) idx (0 : Fin 2)
          + (rowScatterDims R C N wf).window (ix2 e k) (0 : Fin 2)).toNat = n.val :=
        congrArg Fin.val (congrFun hEq (0 : Fin 2))
      have h1 : ((rowScatterDims R C N wf).start (ix2 e k) idx (1 : Fin 2)
          + (rowScatterDims R C N wf).window (ix2 e k) (1 : Fin 2)).toNat = k'.val :=
        congrArg Fin.val (congrFun hEq (1 : Fin 2))
      rw [hs0, hw0] at h0
      rw [hs1, hw1] at h1
      refine ⟨by omega, Fin.ext (by omega)⟩
    · rintro ⟨ht, rfl⟩
      funext a
      refine Fin.ext ?_
      match a with
      | ⟨0, _⟩ =>
        show ((rowScatterDims R C N wf).start (ix2 e k) idx (0 : Fin 2)
          + (rowScatterDims R C N wf).window (ix2 e k) (0 : Fin 2)).toNat = n.val
        rw [hs0, hw0]; omega
      | ⟨1, _⟩ =>
        show ((rowScatterDims R C N wf).start (ix2 e k) idx (1 : Fin 2)
          + (rowScatterDims R C N wf).window (ix2 e k) (1 : Fin 2)).toNat = k.val
        rw [hs1, hw1]; omega
  · rename_i h
    constructor
    · intro hEq; exact absurd hEq (by simp)
    · rintro ⟨ht, rfl⟩
      exfalso; apply h
      intro a
      match a with
      | ⟨0, _⟩ =>
        show 0 ≤ (rowScatterDims R C N wf).start (ix2 e k) idx (0 : Fin 2)
            + (rowScatterDims R C N wf).window (ix2 e k) (0 : Fin 2)
          ∧ (rowScatterDims R C N wf).start (ix2 e k) idx (0 : Fin 2)
            + (rowScatterDims R C N wf).window (ix2 e k) (0 : Fin 2) < (R : Int)
        rw [hs0, hw0]
        have := n.isLt
        omega
      | ⟨1, _⟩ =>
        show 0 ≤ (rowScatterDims R C N wf).start (ix2 e k) idx (1 : Fin 2)
            + (rowScatterDims R C N wf).window (ix2 e k) (1 : Fin 2)
          ∧ (rowScatterDims R C N wf).start (ix2 e k) idx (1 : Fin 2)
            + (rowScatterDims R C N wf).window (ix2 e k) (1 : Fin 2) < (C : Int)
        rw [hs1, hw1]
        have := k.isLt
        omega

/-- THE SCATTER-ADD READ AT (n, k), at the exact instance: the operand's element plus the sum of the updates
    upd[e, k] over the rows e whose scatter index s[e, 0], read signed, is n. -/
theorem rowScatterAdd_apply (x : (⟨2, ![R, C]⟩ : Shape).Idx → EReal) (idx : IVec ⟨2, ![N, 1]⟩ w)
    (upd : (⟨2, ![N, C]⟩ : Shape).Idx → EReal) (n : Fin R) (k : Fin C) :
    Ideal.hostScatterAdd (rowScatterDims R C N wf) x idx upd (ix2 n k)
      = x (ix2 n k) + ∑ e ∈ Finset.univ.filter (fun e : Fin N => (idx (ix2 e (0 : Fin 1))).toInt = (n.val : Int)),
          upd (ix2 e k) := by
  unfold Ideal.hostScatterAdd
  congr 1
  rw [Finset.sum_filter, Finset.sum_filter, sum_idx2]
  refine Finset.sum_congr rfl fun e _ => ?_
  simp only [rowScatter_resultIdx]
  by_cases ht : (idx (ix2 e (0 : Fin 1))).toInt = (n.val : Int)
  · simp only [ht, true_and, if_true]
    exact Finset.sum_ite_eq' Finset.univ k (fun b => upd (ix2 e b)) |>.trans (by simp)
  · simp [ht]

end Scatter

/-! ## The row gather -/

/-- The row gather h[s]: offset_dims [1], collapsed_slice_dims [0], start_index_map [0], index_vector_dim 1,
    slice_sizes [1, C], for an operand [R, C], start indices [N, 1] and a result [N, C]. -/
abbrev rowGatherDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the operand at row s[e, 0], read as a signed integer and clamped into
    [0, R − 1], and column k. -/
theorem rowGather_apply {α : Type} {R C N w : Nat} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (e : Fin N) (k : Fin C) :
    Host.gather (rowGatherDims R C N wf) x idx (ix2 e k)
      = x (ix2 ⟨min (idx (ix2 e (0 : Fin 1))).toInt.toNat (R - 1), by omega⟩ k) := by
  unfold Host.gather
  congr 1
  funext a
  refine Fin.ext ?_
  match a with
  | ⟨0, _⟩ =>
    show (rowGatherDims R C N wf).start (ix2 e k) idx (0 : Fin 2)
        + (rowGatherDims R C N wf).batchCoord (ix2 e k) (0 : Fin 2)
        + (rowGatherDims R C N wf).offCoord (ix2 e k) (0 : Fin 2) = min (idx (ix2 e (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C N wf).startIndexMap from List.mem_singleton.mpr rfl)]
    have hsi : (rowGatherDims R C N wf).siIdx (ix2 e k) ⟨List.idxOf (0 : Fin 2) (rowGatherDims R C N wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims R C N wf).start (ix2 e k) idx (1 : Fin 2)
        + (rowGatherDims R C N wf).batchCoord (ix2 e k) (1 : Fin 2)
        + (rowGatherDims R C N wf).offCoord (ix2 e k) (1 : Fin 2) = k.val
    rw [GatherDims.batchCoord_eq_zero _ _ _ List.not_mem_nil]
    have hst : (rowGatherDims R C N wf).start (ix2 e k) idx (1 : Fin 2) = 0 := by
      unfold GatherDims.start
      rw [dif_neg (show (1 : Fin 2) ∉ (rowGatherDims R C N wf).startIndexMap from
        (show (1 : Fin 2) ∉ [(0 : Fin 2)] by decide))]
    have hoff : (rowGatherDims R C N wf).offCoord (ix2 e k) (1 : Fin 2) = k.val := by
      unfold GatherDims.offCoord
      rw [dif_pos (show (1 : Fin 2) ∈ (rowGatherDims R C N wf).sKept from
        (show (1 : Fin 2) ∈ [(1 : Fin 2)] by decide))]
      rfl
    rw [hst, hoff]
    omega

end Cert.LibRowGatherScatter

end
-- ==== Proof.LibBroadcasts.lean ====
/-
  Three broadcast_in_dim forms read at an index, for any extents: a scalar broadcast to any shape reads the scalar; a
  vector of a values laid out as a column [a, 1] (dims [0]) reads the vector at the row; a column [a, 1] repeated along
  a new last axis to [a, b] (dims [0, 1]) reads the column at the row.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A scalar broadcast to any shape reads, at every index, the scalar. -/
theorem scalar_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 (fun a => a.elim0)

/-- An [a] vector laid out as the column [a, 1] reads, at (p, z), the vector at p. -/
theorem vector_as_column_apply {a : ℕ} (x : (⟨1, ![a]⟩ : Shape).Idx → α)
    (h : (⟨1, ![a]⟩ : Shape).BroadcastsInDim ⟨2, ![a, 1]⟩ (![0] : Fin 1 → Fin 2)) (p : Fin a) (z : Fin 1) :
    broadcastInDim ⟨2, ![a, 1]⟩ ![0] h x (ix2 p z) = x (ix1 p) := by
  refine broadcastInDim_apply ![0] h x (ix2 p z) (ix1 p) fun ax => ?_
  match ax with
  | ⟨0, _⟩ =>
    show p.val = if a = 1 then 0 else p.val
    split
    · have := p.isLt; omega
    · rfl

/-- A column [a, 1] repeated along a new last axis to [a, b] reads, at (p, q), the column at row p. -/
theorem column_over_columns_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else q.val; rw [if_pos rfl]

end Cert.LibBroadcasts

end
-- ==== Proof.KSegApply.lean ====
/-
  The kernel's edge stage read at an entry.

  segOf h dcol rowW colB w at node n, feature k is zero plus the sum, over the edges e landing on n, of
  (h (src e, k) * dcol (src e)) * w e: the scatter-add reads as its operand plus the sum of the updates that land,
  the update of edge e at feature k is the gathered scaled row times the edge weight, the gather reads the clamped
  source row, and the two changes of float format around the gather are the identity in exact arithmetic.
-/
import proofs.«150130_j30382598652516_2_alg».proof.Proof.KTerms
import proofs.«150130_j30382598652516_2_alg».proof.Proof.SpecEdges
import proofs.«150130_j30382598652516_2_alg».proof.Proof.LibRowGatherScatter
import proofs.«150130_j30382598652516_2_alg».proof.Proof.LibBroadcasts
import Idealize.ShloMosaic.Lib.ValueIdx

noncomputable section

open scoped BigOperators

namespace Cert.KernelIdeal.KSegApply

open Idealize.ShloMosaic Idealize.ShloMosaic.ValueIdx
open Cert.KernelIdeal Cert.KernelIdeal.Facts₀ Cert.KernelIdeal.Facts Cert.KernelIdeal.KTerms Cert.GcnSpec

theorem segOf_apply (h : FVec Ideal S30000x512 .f32) (dcol : FVec Ideal S30000x1 .f32) (rowW colB : IVec S240000x1 32)
    (wE : FVec Ideal S240000 .f32) (n : Fin 30000) (k : Fin 512) :
    segOf h dcol rowW colB wE (ix2 n k)
      = c0 + ∑ e ∈ landOf colB n, (h (ix2 (srcOf rowW e) k) * dcol (ix2 (srcOf rowW e) (0 : Fin 1))) * wE (ix1 e) := by
  unfold segOf
  refine (Cert.LibRowGatherScatter.rowScatterAdd_apply (R := 30000) (C := 512) (N := 240000) scatter_S30000x512_S240000x1_S240000x512_1_0_0_1_wf _ colB _ n k).trans ?_
  refine congrArg₂ (· + ·) ?_ (Finset.sum_congr rfl fun e _ => ?_)
  · exact Cert.LibBroadcasts.scalar_apply _ _ _
  · show Host.gather gather_S30000x512_S240000x1_S240000x512_1_0_n_n_0_1_1512
          (truncf .bf16 (mulf h (broadcastInDim S30000x512 ![0, 1] bcast_S30000x1_S30000x512_0_1 dcol)) bitsLt_bf16_f32) rowW (ix2 e k)
        * broadcastInDim S240000x512 ![0, 1] bcast_S240000x1_S240000x512_0_1
            (broadcastInDim S240000x1 ![0] bcast_S240000_S240000x1_0 wE) (ix2 e k) = _
    rw [Cert.LibBroadcasts.column_over_columns_apply, Cert.LibBroadcasts.vector_as_column_apply]
    refine congrArg (· * wE (ix1 e)) ?_
    refine (Cert.LibRowGatherScatter.rowGather_apply (R := 30000) (C := 512) (N := 240000) (by norm_num) gather_S30000x512_S240000x1_S240000x512_1_0_n_n_0_1_1512_wf _ rowW e k).trans ?_
    show h (ix2 (srcOf rowW e) k) * broadcastInDim S30000x512 ![0, 1] bcast_S30000x1_S30000x512_0_1 dcol (ix2 (srcOf rowW e) k) = _
    rw [Cert.LibBroadcasts.column_over_columns_apply]

end Cert.KernelIdeal.KSegApply

end
-- ==== Proof.RefTerms.lean ====
/-
  The reference program's layer, as functions of arrays.

  * rowWOf idx: an index vector with negative values wrapped by + 30000, laid out as a column of start indices.
  * colBOf col: the destination indices laid out as a column of scatter indices.
  * normOf dinv row col w: the per-edge normalised weight (dinv[row] * w) * dinv[col], both gathers through wrapped
    indices.
  * outOf h0 h rowW colB norm: c08 * (rows of h gathered by source, times the edge's normalised weight, added up by
    destination into zeros) + c02 * h0.
  * refLayer: max (c0 * out + c1 * (out times the weight matrix)) c0.
  The three layers of the reference are refLayer of the previous layer's result, of the same h0, indices and weights,
  and of their own weight matrix: each is spelt with exactly the operations the program prints, so the reference's
  stage functions are these by unfolding alone.
-/
import proofs.«150130_j30382598652516_2_alg».proof.Proof.Gen.ReferenceIdeal.Read
import Idealize.ShloMosaic.PureOps.Ideal

set_option maxRecDepth 16384

noncomputable section

namespace Cert.ReferenceIdeal.RefTerms

open Idealize.ShloMosaic
open Cert.ReferenceIdeal Cert.ReferenceIdeal.Facts₀ Cert.ReferenceIdeal.Facts

/-- An index vector, negative values wrapped, as a column of start indices. -/
def rowWOf (idx : IVec S240000 32) : IVec S240000x1 32 :=
  broadcastInDim S240000x1 ![0] bcast_S240000_S240000x1_0
    (select (cmpi .slt idx (broadcastInDim S240000 ![] bcast_S_S240000 (constantI S_ 32 0#32)))
      (addi idx (broadcastInDim S240000 ![] bcast_S_S240000 (constantI S_ 32 30000#32))) idx)

/-- The destination indices as a column of scatter indices. -/
def colBOf (col : IVec S240000 32) : IVec S240000x1 32 :=
  broadcastInDim S240000x1 ![0] bcast_S240000_S240000x1_0 col

/-- The per-edge normalised weight. -/
def normOf (dinv : FVec Ideal S30000 .f32) (row col : IVec S240000 32) (wE : FVec Ideal S240000 .f32) :
    FVec Ideal S240000 .f32 :=
  mulf (mulf (Host.gather gather_S30000_S240000x1_S240000_n_0_n_n_0_1_1 dinv (rowWOf row)) wE) (Host.gather gather_S30000_S240000x1_S240000_n_0_n_n_0_1_1 dinv (rowWOf col))

/-- The aggregate mixed with the first layer's output. -/
def outOf (h0 h : FVec Ideal S30000x512 .f32) (rowW colB : IVec S240000x1 32) (norm : FVec Ideal S240000 .f32) :
    FVec Ideal S30000x512 .f32 :=
  addf
    (mulf (broadcastInDim S30000x512 ![] bcast_S_S30000x512 (constant S_ .f32 0x3F4CCCCD#32))
      (Host.scatterAdd scatter_S30000x512_S240000x1_S240000x512_1_0_0_1
        (broadcastInDim S30000x512 ![] bcast_S_S30000x512 (constant S_ .f32 0x00000000#32)) colB
        (mulf (Host.gather gather_S30000x512_S240000x1_S240000x512_1_0_n_n_0_1_1512 h rowW)
          (broadcastInDim S240000x512 ![0, 1] bcast_S240000x1_S240000x512_0_1
            (broadcastInDim S240000x1 ![0] bcast_S240000_S240000x1_0 norm)))))
    (mulf (broadcastInDim S30000x512 ![] bcast_S_S30000x512 (constant S_ .f32 0x3E4CCCCD#32)) h0)

/-- One layer. -/
def refLayer (h0 h : FVec Ideal S30000x512 .f32) (rowW colB : IVec S240000x1 32) (norm : FVec Ideal S240000 .f32)
    (wc : FVec Ideal S512x512 .f32) : FVec Ideal S30000x512 .f32 :=
  maximumf
    (addf
      (mulf (broadcastInDim S30000x512 ![] bcast_S_S30000x512 (constant S_ .f32 0x00000000#32)) (outOf h0 h rowW colB norm))
      (mulf (broadcastInDim S30000x512 ![] bcast_S_S30000x512 (constant S_ .f32 0x3F800000#32))
        (Host.dotGeneral dot_S30000x512_S512x512_S30000x512_1_0_0_1_n_n none (outOf h0 h rowW colB norm) wc)))
    (broadcastInDim S30000x512 ![] bcast_S_S30000x512 (constant S_ .f32 0x00000000#32))

section
variable (x0 : (⟨S30000x41, .f32⟩ : BufTy).Contents (Elt Ideal)) (x1 : (⟨S2x240000, .i32⟩ : BufTy).Contents (Elt Ideal))
  (x2 : (⟨S240000x4, .f32⟩ : BufTy).Contents (Elt Ideal)) (x3 : (⟨S512x38, .f32⟩ : BufTy).Contents (Elt Ideal))
  (x4 : (⟨S512, .f32⟩ : BufTy).Contents (Elt Ideal)) (x5 x6 x7 : (⟨S512x512, .f32⟩ : BufTy).Contents (Elt Ideal))

open Cert.ReferenceIdeal.Read

/-- The normalised weights the program computes. -/
theorem v39_eq : val_main_v39 (F := Ideal) x1 x2
    = normOf (val_main_v23 (F := Ideal) x1 x2) (val_main_v1 (F := Ideal) x1) (val_main_v3 (F := Ideal) x1)
        (val_main_v7 (F := Ideal) x2) := rfl

/-- The first layer's result is refLayer of h0 itself. -/
theorem v64_eq : val_main_v64 (F := Ideal) x0 x1 x2 x3 x4 x5
    = refLayer (val_main_v13 (F := Ideal) x0 x3 x4) (val_main_v13 (F := Ideal) x0 x3 x4)
        (rowWOf (val_main_v1 (F := Ideal) x1)) (colBOf (val_main_v3 (F := Ideal) x1)) (val_main_v39 (F := Ideal) x1 x2) x5 := rfl

/-- The second layer's result is refLayer of the first's. -/
theorem v89_eq : val_main_v89 (F := Ideal) x0 x1 x2 x3 x4 x5 x6
    = refLayer (val_main_v13 (F := Ideal) x0 x3 x4) (val_main_v64 (F := Ideal) x0 x1 x2 x3 x4 x5)
        (rowWOf (val_main_v1 (F := Ideal) x1)) (colBOf (val_main_v3 (F := Ideal) x1)) (val_main_v39 (F := Ideal) x1 x2) x6 := rfl

/-- The third layer's result is refLayer of the second's. -/
theorem v114_eq : val_main_v114 (F := Ideal) x0 x1 x2 x3 x4 x5 x6 x7
    = refLayer (val_main_v13 (F := Ideal) x0 x3 x4) (val_main_v89 (F := Ideal) x0 x1 x2 x3 x4 x5 x6)
        (rowWOf (val_main_v1 (F := Ideal) x1)) (colBOf (val_main_v3 (F := Ideal) x1)) (val_main_v39 (F := Ideal) x1 x2) x7 := rfl

end

end Cert.ReferenceIdeal.RefTerms

end
-- ==== Proof.LibVectorGather.lean ====
/-
  A VECTOR GATHER READ AT AN INDEX, for any extents.

  For an operand of shape [R] and an integer array of indices of shape [N, 1], the gather x[s] (offset_dims [],
  collapsed_slice_dims [0], start_index_map [0], index_vector_dim 1, slice_sizes [1]) has shape [N], and at e it is the
  operand at s[e, 0], read as a signed integer and clamped into [0, R - 1].
-/
import Idealize.ShloMosaic.PureOps.Ideal.Laws
import Idealize.ShloMosaic.Lib.ValueIdx

noncomputable section

namespace Cert.LibVectorGather

open Idealize.ShloMosaic Idealize.ShloMosaic.ValueIdx

/-- The vector gather x[s]: offset_dims [], collapsed_slice_dims [0], start_index_map [0], index_vector_dim 1,
    slice_sizes [1], for an operand [R], start indices [N, 1] and a result [N]. -/
abbrev vecGatherDims (R N : Nat)
    (wf : GatherDims.WF ⟨1, ![R]⟩ ⟨2, ![N, 1]⟩ ⟨1, ![N]⟩ [] [0] [] [0] [] 1 ![1]) :
    GatherDims ⟨1, ![R]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE VECTOR GATHER READ AT e: the operand at s[e, 0], read as a signed integer and clamped into [0, R - 1]. -/
theorem vecGather_apply {α : Type} {R N w : Nat} (hR : 0 < R)
    (wf : GatherDims.WF ⟨1, ![R]⟩ ⟨2, ![N, 1]⟩ ⟨1, ![N]⟩ [] [0] [] [0] [] 1 ![1])
    (x : (⟨1, ![R]⟩ : Shape).Idx → α) (idx : IVec ⟨2, ![N, 1]⟩ w) (e : Fin N) :
    Host.gather (vecGatherDims R N wf) x idx (ix1 e)
      = x (ix1 ⟨min (idx (ix2 e (0 : Fin 1))).toInt.toNat (R - 1), by omega⟩) := by
  unfold Host.gather
  congr 1
  funext a
  refine Fin.ext ?_
  match a with
  | ⟨0, _⟩ =>
    show (vecGatherDims R N wf).start (ix1 e) idx (0 : Fin 1)
        + (vecGatherDims R N wf).batchCoord (ix1 e) (0 : Fin 1)
        + (vecGatherDims R N wf).offCoord (ix1 e) (0 : Fin 1) = min (idx (ix2 e (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims R N wf).startIndexMap from List.mem_singleton.mpr rfl)]
    have hsi : (vecGatherDims R N wf).siIdx (ix1 e) ⟨List.idxOf (0 : Fin 1) (vecGatherDims R N wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibVectorGather

end
-- ==== Proof.LibPlainHostDot.lean ====
/-
  The host's matrix product with plain dimension numbers, read at an entry in exact arithmetic.

  A `stablehlo.dot_general` of a rows-by-`K` matrix with a `K`-by-columns matrix (one contracted axis, nothing
  batched) is, at the entry `(p, c)`, the sum over the contracted coordinate `a` of the left factor at `(p, a)`
  times the right factor at `(a, c)`. On the extended reals this is a plain finite sum: no accumulator is added
  and nothing is cancelled, so no finiteness of the entries is needed.
-/
import Idealize.ShloMosaic.PureOps.Ideal.Laws
import Idealize.ShloMosaic.Lib.ValueIdx

noncomputable section

open scoped BigOperators

namespace Cert.LibPlainHostDot

open Idealize.ShloMosaic Idealize.ShloMosaic.ValueIdx

/-- A plain `R × K` by `K × C` host product read at `(p, c)` in exact arithmetic: `∑ a, l (p, a) * r (a, c)`.
    The hypotheses `hl0 … hr1` say the dimension numbers are the plain ones: the left factor's index takes its row
    from the output index and its column from the contraction index, the right factor's its row from the
    contraction index and its column from the output index. -/
theorem hostDot_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    Host.dotGeneral D prec l r (ix2 p c) = ∑ a : Fin K, l (ix2 p a) * r (ix2 a c) := by
  show FloatOps.dotGeneral D prec .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainHostDot

end
-- ==== Proof.RefApply.lean ====
/-
  The reference's layer read at an entry, and as the spec's arrangement B.

  At node n, feature j the layer is the spec's headRow of the mixed row of n, whose aggregate at feature k is zero plus
  the sum over the edges e landing on n of h (src e, k) times the edge's normalised weight; that weight is
  (dinv (src e) * w e) * dinv (dst e) with src and dst the wrapped source and destination indices, clamped. So the
  layer is arrangement B. An edge that lands on n has a destination index equal to n, which is not negative, so wrapping
  leaves it alone and clamping into [0, 29999] too: its dst is n.
-/
import proofs.«150130_j30382598652516_2_alg».proof.Proof.RefTerms
import proofs.«150130_j30382598652516_2_alg».proof.Proof.SpecEdges
import proofs.«150130_j30382598652516_2_alg».proof.Proof.LibRowGatherScatter
import proofs.«150130_j30382598652516_2_alg».proof.Proof.LibVectorGather
import proofs.«150130_j30382598652516_2_alg».proof.Proof.LibBroadcasts
import proofs.«150130_j30382598652516_2_alg».proof.Proof.LibPlainHostDot
import Idealize.ShloMosaic.Lib.ValueIdx
import Idealize.ShloMosaic.Lib.ValueLayout
import Idealize.ShloMosaic.Lib.Affine

set_option maxRecDepth 16384

noncomputable section

open scoped BigOperators

namespace Cert.ReferenceIdeal.RefApply

open Idealize.ShloMosaic Idealize.ShloMosaic.ValueIdx
open Cert.ReferenceIdeal Cert.ReferenceIdeal.Facts₀ Cert.ReferenceIdeal.Facts Cert.ReferenceIdeal.RefTerms Cert.GcnSpec
open Cert.LibBroadcasts (scalar_apply vector_as_column_apply column_over_columns_apply)

/-- The normalised weight of edge e. -/
theorem normOf_apply (dinv : FVec Ideal S30000 .f32) (row col : IVec S240000 32) (wE : FVec Ideal S240000 .f32)
    (e : Fin 240000) :
    normOf dinv row col wE (ix1 e)
      = (dinv (ix1 (srcOf (rowWOf row) e)) * wE (ix1 e)) * dinv (ix1 (srcOf (rowWOf col) e)) := by
  unfold normOf
  show Host.gather gather_S30000_S240000x1_S240000_n_0_n_n_0_1_1 dinv (rowWOf row) (ix1 e) * wE (ix1 e) * Host.gather gather_S30000_S240000x1_S240000_n_0_n_n_0_1_1 dinv (rowWOf col) (ix1 e) = _
  refine congrArg₂ (· * ·) (congrArg (· * wE (ix1 e)) ?_) ?_
  · exact Cert.LibVectorGather.vecGather_apply (R := 30000) (N := 240000) (by norm_num) gather_S30000_S240000x1_S240000_n_0_n_n_0_1_1_wf dinv (rowWOf row) e
  · exact Cert.LibVectorGather.vecGather_apply (R := 30000) (N := 240000) (by norm_num) gather_S30000_S240000x1_S240000_n_0_n_n_0_1_1_wf dinv (rowWOf col) e

/-- The mixed aggregate at node n, feature k. -/
theorem outOf_apply (h0 h : FVec Ideal S30000x512 .f32) (rowW colB : IVec S240000x1 32) (norm : FVec Ideal S240000 .f32)
    (n : Fin 30000) (k : Fin 512) :
    outOf h0 h rowW colB norm (ix2 n k)
      = mixRow (fun k => c0 + ∑ e ∈ landOf colB n, h (ix2 (srcOf rowW e) k) * norm (ix1 e)) (fun k => h0 (ix2 n k)) k := by
  unfold outOf mixRow
  refine congrArg₂ (· + ·) (congrArg₂ (· * ·) (scalar_apply _ _ _) ?_) (congrArg₂ (· * ·) (scalar_apply _ _ _) rfl)
  refine (Cert.LibRowGatherScatter.rowScatterAdd_apply (R := 30000) (C := 512) (N := 240000) scatter_S30000x512_S240000x1_S240000x512_1_0_0_1_wf _ colB _ n k).trans ?_
  refine congrArg₂ (· + ·) (scalar_apply _ _ _) (Finset.sum_congr rfl fun e _ => ?_)
  show Host.gather gather_S30000x512_S240000x1_S240000x512_1_0_n_n_0_1_1512 h rowW (ix2 e k)
      * broadcastInDim S240000x512 ![0, 1] bcast_S240000x1_S240000x512_0_1
          (broadcastInDim S240000x1 ![0] bcast_S240000_S240000x1_0 norm) (ix2 e k) = _
  rw [column_over_columns_apply, vector_as_column_apply]
  exact congrArg (· * norm (ix1 e))
    (Cert.LibRowGatherScatter.rowGather_apply (R := 30000) (C := 512) (N := 240000) (by norm_num) gather_S30000x512_S240000x1_S240000x512_1_0_n_n_0_1_1512_wf h rowW e k)

/-- The layer at node n, feature j. -/
theorem refLayer_apply (h0 h : FVec Ideal S30000x512 .f32) (rowW colB : IVec S240000x1 32) (norm : FVec Ideal S240000 .f32)
    (wc : FVec Ideal S512x512 .f32) (n : Fin 30000) (j : Fin 512) :
    refLayer h0 h rowW colB norm wc (ix2 n j)
      = headRow (mixRow (fun k => c0 + ∑ e ∈ landOf colB n, h (ix2 (srcOf rowW e) k) * norm (ix1 e)) (fun k => h0 (ix2 n k))) wc j := by
  unfold refLayer headRow
  refine congrArg₂ max (congrArg₂ (· + ·) (congrArg₂ (· * ·) (scalar_apply _ _ _) (outOf_apply h0 h rowW colB norm n j))
    (congrArg₂ (· * ·) (scalar_apply _ _ _) ?_)) (scalar_apply _ _ _)
  refine (Cert.LibPlainHostDot.hostDot_plain dot_S30000x512_S512x512_S30000x512_1_0_0_1_n_n rfl rfl Read.lhs_main_v60_0 Read.lhs_main_v60_1 Read.rhs_main_v60_0
    Read.rhs_main_v60_1 none _ wc n j).trans ?_
  exact Finset.sum_congr rfl fun k _ => by rw [outOf_apply]

/-- The layer is the spec's arrangement B of the same edges, scales and weights. -/
theorem refLayer_eq_layerB (h0 h : FVec Ideal S30000x512 .f32) (dinv : FVec Ideal S30000 .f32) (row col : IVec S240000 32)
    (wE : FVec Ideal S240000 .f32) (wc : FVec Ideal S512x512 .f32) :
    refLayer h0 h (rowWOf row) (colBOf col) (normOf dinv row col wE) wc
      = layerB (landOf (colBOf col)) (srcOf (rowWOf row)) (srcOf (rowWOf col)) (fun n => dinv (ix1 n)) (fun e => wE (ix1 e))
          h0 h wc := by
  funext i
  obtain ⟨n, j, rfl⟩ : ∃ (n : Fin 30000) (j : Fin 512), i = ix2 n j := ⟨rowOf i, colOf i, eq_ix2_rowOf_colOf i⟩
  rw [refLayer_apply]
  unfold layerB
  rw [rowOf_ix2, colOf_ix2]
  refine congrArg (fun a => headRow (mixRow a (fun k => h0 (ix2 n k))) wc j) (funext fun k => ?_)
  unfold aggB
  refine congrArg (c0 + ·) (Finset.sum_congr rfl fun e _ => ?_)
  rw [normOf_apply]

/-- An edge landing on n has wrapped, clamped destination n. -/
theorem src_of_land (col : IVec S240000 32) (n : Fin 30000) (e : Fin 240000) (he : e ∈ landOf (colBOf col) n) :
    srcOf (rowWOf col) e = n := by
  have h1 : (colBOf col (ix2 e (0 : Fin 1))).toInt = (n.val : Int) := (Finset.mem_filter.mp he).2
  have hc : colBOf col (ix2 e (0 : Fin 1)) = col (ix1 e) := by unfold colBOf; exact vector_as_column_apply _ _ _ _
  rw [hc] at h1
  have hw : rowWOf col (ix2 e (0 : Fin 1)) = col (ix1 e) := by
    unfold rowWOf
    rw [vector_as_column_apply]
    show Scalar.select (IntOp.cmpi .slt (col (ix1 e)) (broadcastInDim S240000 ![] bcast_S_S240000 (constantI S_ 32 0#32) (ix1 e)))
      (IntOp.addi (col (ix1 e)) (broadcastInDim S240000 ![] bcast_S_S240000 (constantI S_ 32 30000#32) (ix1 e))) (col (ix1 e)) = _
    rw [scalar_apply]
    have hz : IntOp.cmpi .slt (col (ix1 e)) (constantI S_ 32 0#32 ix0) = 0#1 := by
      refine eq_zero_of_ne_one fun h => ?_
      have := IntOp.cmpi_slt.mp h
      have h0 : (constantI S_ 32 0#32 ix0 : BitVec 32).toInt = 0 := by decide
      omega
    rw [hz, select_zero]
  refine Fin.ext ?_
  show min (rowWOf col (ix2 e (0 : Fin 1))).toInt.toNat (30000 - 1) = n.val
  rw [hw, h1]
  have := n.isLt
  omega

end Cert.ReferenceIdeal.RefApply

end
-- ==== Proof.BridgeH0.lean ====
/-
  The first layer: the kernel's and the reference's are one function.

  The kernel's first region leaves lin(features, narrowed transposed weights, bias row); the reference computes a
  dot_general of the same features with the same transposed weights and adds the bias broadcast over the rows. At node
  n, feature j both are the sum over the 38 input features k of features (n, k) * weights (k, j), plus bias j: the
  narrowing is the identity in exact arithmetic, the dot_general is that sum, and the bias reshaped to one row or
  broadcast to all rows reads the bias at j.
-/
import proofs.«150130_j30382598652516_2_alg».proof.Proof.Gen.ReferenceIdeal.Read
import proofs.«150130_j30382598652516_2_alg».proof.Proof.Gen.KernelIdeal
import proofs.«150130_j30382598652516_2_alg».proof.Proof.SpecLin
import Idealize.ShloMosaic.Lib.ValueIdx
import Idealize.ShloMosaic.Lib.ValueLayout

set_option maxRecDepth 16384

noncomputable section

open scoped BigOperators

namespace Cert.BridgeH0

open Idealize.ShloMosaic Idealize.ShloMosaic.ValueIdx Cert.GcnSpec
open Cert.ReferenceIdeal Cert.ReferenceIdeal.Read

theorem h0_eq (x0 : (⟨S30000x41, .f32⟩ : BufTy).Contents (Elt Ideal)) (x3 : (⟨S512x38, .f32⟩ : BufTy).Contents (Elt Ideal))
    (x4 : (⟨S512, .f32⟩ : BufTy).Contents (Elt Ideal)) :
    lin (val_main_v8 (F := Ideal) x0)
        (truncf .bf16 (val_main_v9 (F := Ideal) x3) Cert.KernelIdeal.Facts₀.bitsLt_bf16_f32 : FVec Ideal S38x512 .bf16)
        (shapeCast Cert.KernelIdeal.S1x512 x4 Cert.KernelIdeal.Facts₀.shapeCasts_S512_S1x512 : FVec Ideal S1x512 .f32)
      = val_main_v13 (F := Ideal) x0 x3 x4 := by
  funext i
  obtain ⟨n, j, rfl⟩ : ∃ (n : Fin 30000) (j : Fin 512), i = ix2 n j := ⟨rowOf i, colOf i, eq_ix2_rowOf_colOf i⟩
  unfold lin linRow
  rw [rowOf_ix2, colOf_ix2, val_main_v13_apply]
  show (∑ k : Fin 38, val_main_v8 (F := Ideal) x0 (ix2 n k) * val_main_v9 (F := Ideal) x3 (ix2 k j))
      + shapeCast Cert.KernelIdeal.S1x512 x4 Cert.KernelIdeal.Facts₀.shapeCasts_S512_S1x512 (ix2 (0 : Fin 1) j)
    = val_main_v10 (F := Ideal) x0 x3 (ix2 n j) + val_main_v12 (F := Ideal) x4 (ix2 n j)
  rw [val_main_v10_apply, val_main_v12_apply, val_main_v11_apply, shapeCast_a_1a_apply]
  refine congrArg₂ (· + ·) (Finset.sum_congr rfl fun k _ => ?_) ?_
  · have el : lidx_main_v10 (ix2 n j) k = ix2 n k := funext fun a => match a with | ⟨0, _⟩ => rfl | ⟨1, _⟩ => rfl
    have er : ridx_main_v10 (ix2 n j) k = ix2 k j := funext fun a => match a with | ⟨0, _⟩ => rfl | ⟨1, _⟩ => rfl
    rw [el, er]
  · exact congrArg x4 (funext fun a => match a with | ⟨0, _⟩ => rfl)

end Cert.BridgeH0

end
-- ==== Proof.Reals.lean ====
/-
  Which of the computed arrays have only real entries.

  * A 32-bit pattern whose exponent field is neither all zeros nor all ones denotes a nonzero real number, so dividing a
    real by it gives a real: the edge weights (an input column divided by the printed maximum weight) are real.
  * The node scales are real whatever the degrees are: where the degree is positive it is +infinity or a positive real,
    and the inverse square root of +infinity is 0 and of a positive real a real; elsewhere the scale is the constant 0.
  * A slice, a transpose, a reshape or a narrowing of an array of reals has only real entries: each entry is an entry of
    the array.
-/
import proofs.«150130_j30382598652516_2_alg».proof.Proof.Gen.ReferenceIdeal.Read
import proofs.«150130_j30382598652516_2_alg».proof.Proof.KTerms
import proofs.«150130_j30382598652516_2_alg».proof.Proof.SpecLin
import proofs.«150130_j30382598652516_2_alg».proof.Proof.LibBroadcasts
import Idealize.ShloMosaic.Lib.ValueIdx
import Idealize.ShloMosaic.PureOps.Ideal.Laws

set_option maxRecDepth 16384

noncomputable section

namespace Cert.Reals

open Idealize.ShloMosaic Idealize.ShloMosaic.ValueIdx Cert.RealSums Cert.GcnSpec
open Cert.LibBroadcasts (scalar_apply)

/-! ## Division by a normal constant -/

/-- A 32-bit pattern with a normal exponent denotes a nonzero real. -/
theorem ofBits_f32_normal (b : BitVec 32) (h1 : (b.extractLsb' 23 8).toNat ≠ 2 ^ 8 - 1) (h0 : (b.extractLsb' 23 8).toNat ≠ 0) :
    ∃ r : ℝ, r ≠ 0 ∧ Ideal.ofBits .f32 b = (r : EReal) := by
  show ∃ r : ℝ, r ≠ 0 ∧ Ideal.ieee 8 23 b = (r : EReal)
  unfold Ideal.ieee
  dsimp only
  rw [if_neg h1, if_neg h0]
  refine ⟨_, ?_, rfl⟩
  refine mul_ne_zero (mul_ne_zero ?_ ?_) (zpow_ne_zero _ (by norm_num))
  · split <;> norm_num
  · exact Nat.cast_ne_zero.mpr (by positivity)

/-- A real divided by a normal constant is real. -/
theorem isReal_div_normal (x : EReal) (hx : IsReal x) (b : BitVec 32) (h1 : (b.extractLsb' 23 8).toNat ≠ 2 ^ 8 - 1)
    (h0 : (b.extractLsb' 23 8).toNat ≠ 0) : IsReal (Ideal.div x (Ideal.ofBits .f32 b)) := by
  obtain ⟨r, hr, e⟩ := ofBits_f32_normal b h1 h0
  rw [e, Ideal.div_coe hr]
  exact hx.mul ⟨_, rfl⟩

/-! ## The reference's stage functions of real arguments -/

section Stages
open Cert.ReferenceIdeal Cert.ReferenceIdeal.Read

/-- The edge weights are real. -/
theorem isReal_w (x2 : (⟨S240000x4, .f32⟩ : BufTy).Contents (Elt Ideal)) (hx2 : ∀ i, IsReal (x2 i)) (i : S240000.Idx) :
    IsReal (val_main_v7 (F := Ideal) x2 i) := by
  rw [val_main_v7_apply, val_main_v5_apply, val_main_v4_apply, val_main_v6_apply, val_main_cst_apply]
  exact isReal_div_normal _ (hx2 _) _ (by decide) (by decide)

/-- The kept input features are real. -/
theorem isReal_feat (x0 : (⟨S30000x41, .f32⟩ : BufTy).Contents (Elt Ideal)) (hx0 : ∀ i, IsReal (x0 i)) (i : S30000x38.Idx) :
    IsReal (val_main_v8 (F := Ideal) x0 i) := by
  rw [val_main_v8_apply]; exact hx0 _

/-- The transposed first-layer weights are real. -/
theorem isReal_w1t (x3 : (⟨S512x38, .f32⟩ : BufTy).Contents (Elt Ideal)) (hx3 : ∀ i, IsReal (x3 i)) (i : S38x512.Idx) :
    IsReal (val_main_v9 (F := Ideal) x3 i) := by
  rw [val_main_v9_apply]; exact hx3 _

end Stages

/-! ## The node scales -/

section Scales
open Cert.KernelIdeal Cert.KernelIdeal.Facts₀ Cert.KernelIdeal.Facts Cert.KernelIdeal.KTerms

/-- Whatever g is: the inverse square root where g is positive, zero elsewhere, is real. -/
theorem isReal_scale (g one : EReal) :
    IsReal (Scalar.select (Ideal.cmp .ogt g 0) (Ideal.rsqrt (Scalar.select (Ideal.cmp .ogt g 0) g one)) (0 : EReal)) := by
  by_cases hc : Ideal.cmp .ogt g 0 = 1#1
  · rw [hc, select_one, select_one]
    have hc' : BitVec.ofBool (decide ((0 : EReal) < g)) = 1#1 := hc
    have hpos : (0 : EReal) < g := by
      by_contra hn
      rw [show decide ((0 : EReal) < g) = false from decide_eq_false hn] at hc'
      exact absurd hc' (by decide)
    induction g using EReal.rec with
    | bot => exact absurd hpos (by simp)
    | top => exact ⟨0, by simp⟩
    | coe r =>
      have hr : 0 < r := by exact_mod_cast hpos
      rw [Ideal.rsqrt_coe, if_neg (not_lt.mpr hr.le), if_neg hr.ne']
      exact ⟨_, rfl⟩
  · rw [eq_zero_of_ne_one hc, select_zero]
    exact isReal_zero

/-- The host's inverse square root of a vector, read at an index. -/
theorem hostRsqrt_apply {s : Shape} (v : FVec Ideal s .f32) (i : s.Idx) : Host.rsqrt v i = Ideal.rsqrt (v i) := rfl

/-- The node scales are real. -/
theorem isReal_dinvOf (col : IVec S240000 32) (wE : FVec Ideal S240000 .f32) (n : Fin 30000) :
    IsReal (dinvOf col wE (ix1 n)) := by
  have hz : broadcastInDim S30000 ![] bcast_S_S30000 (constant (F := Ideal) S_ .f32 0x00000000#32) (ix1 n) = (0 : EReal) :=
    (scalar_apply _ _ _).trans Ideal.ofBits_zero_f32
  unfold dinvOf
  rw [select_apply, hostRsqrt_apply, select_apply, cmpf_apply, hz]
  exact isReal_scale _ _

end Scales

end Cert.Reals

end
-- ==== Proof.Bridge.lean ====
/-
  The kernel's result and the reference's result are one function of the arguments.

  With the edges that land on a node, an edge's clamped source, the node scales d and the edge weights w read off the
  arguments, the kernel's three later regions compute arrangement A of the graph layer three times (the scale of the
  landing node applied after the edge sum), and the reference computes arrangement B three times (the scale inside each
  edge's normalised weight). Both start from the same first layer h0 and use the same weight matrices. On real entries
  A and B agree, and a layer of real entries is real, so the agreement passes from each layer to the next. The entries
  are real because the precondition makes every floating-point argument real, the edge weights are those divided by a
  nonzero constant, the node scales are real whatever the degrees are, and h0 is sums of products of reals.
-/
import proofs.«150130_j30382598652516_2_alg».proof.Proof.KFoldB
import proofs.«150130_j30382598652516_2_alg».proof.Proof.KSegApply
import proofs.«150130_j30382598652516_2_alg».proof.Proof.RefApply
import proofs.«150130_j30382598652516_2_alg».proof.Proof.BridgeH0
import proofs.«150130_j30382598652516_2_alg».proof.Proof.Reals
import proofs.«150130_j30382598652516_2_alg».proof.Proof.LibLayout

set_option maxRecDepth 16384

noncomputable section

namespace Cert.Bridge

open Idealize.ShloMosaic Idealize.ShloMosaic.TcCoe Idealize.ShloMosaic.ValueIdx Idealize.SL.Sem
open Cert.GcnSpec Cert.RealSums

variable (m : (ℓ : Loc Cert.KernelIdeal.nD Cert.KernelIdeal.τ Cert.KernelIdeal.sig) → Buf (Elt Ideal) ℓ) (c : Dev Cert.KernelIdeal.nD)

/-! ## The arguments, and what is read off them -/

abbrev X0 := m ((c : Thread Cert.KernelIdeal.nD Cert.KernelIdeal.τ).loc Cert.KernelIdeal.main_arg0)
abbrev X1 := m ((c : Thread Cert.KernelIdeal.nD Cert.KernelIdeal.τ).loc Cert.KernelIdeal.main_arg1)
abbrev X2 := m ((c : Thread Cert.KernelIdeal.nD Cert.KernelIdeal.τ).loc Cert.KernelIdeal.main_arg2)
abbrev X3 := m ((c : Thread Cert.KernelIdeal.nD Cert.KernelIdeal.τ).loc Cert.KernelIdeal.main_arg3)
abbrev X4 := m ((c : Thread Cert.KernelIdeal.nD Cert.KernelIdeal.τ).loc Cert.KernelIdeal.main_arg4)
abbrev X5 := m ((c : Thread Cert.KernelIdeal.nD Cert.KernelIdeal.τ).loc Cert.KernelIdeal.main_arg5)
abbrev X6 := m ((c : Thread Cert.KernelIdeal.nD Cert.KernelIdeal.τ).loc Cert.KernelIdeal.main_arg6)
abbrev X7 := m ((c : Thread Cert.KernelIdeal.nD Cert.KernelIdeal.τ).loc Cert.KernelIdeal.main_arg7)

/-- The edges landing on a node. -/
def Lnd : Fin 30000 → Finset (Fin 240000) := landOf (Cert.KernelIdeal.KTerms.colBOf (Cert.KernelIdeal.KFoldA.colC m c))
/-- An edge's clamped source node. -/
def Src : Fin 240000 → Fin 30000 := srcOf (Cert.KernelIdeal.KTerms.rowWOf (Cert.KernelIdeal.KFoldA.rowC m c))
/-- An edge's clamped destination node. -/
def Dst : Fin 240000 → Fin 30000 := srcOf (Cert.KernelIdeal.KTerms.rowWOf (Cert.KernelIdeal.KFoldA.colC m c))
/-- The node scales. -/
def Dn (n : Fin 30000) : EReal := Cert.KernelIdeal.KFoldA.dcolC m c (ix2 n (0 : Fin 1))
/-- The edge weights. -/
def We (e : Fin 240000) : EReal := Cert.KernelIdeal.KFoldA.wC m c (ix1 e)

/-! ## The kernel's layers are arrangement A -/

theorem comb_eq (h : FVec Ideal Cert.KernelIdeal.S30000x512 .f32) (wc : HH.Idx → EReal) :
    combine (Cert.KernelIdeal.KTerms.segOf h (Cert.KernelIdeal.KFoldA.dcolC m c) (Cert.KernelIdeal.KTerms.rowWOf (Cert.KernelIdeal.KFoldA.rowC m c)) (Cert.KernelIdeal.KTerms.colBOf (Cert.KernelIdeal.KFoldA.colC m c)) (Cert.KernelIdeal.KFoldA.wC m c))
        (Cert.KernelIdeal.KFoldA.dcolC m c) (Cert.KernelIdeal.KFoldA.h0C m c) wc
      = layerA (Lnd m c) (Src m c) (Dn m c) (We m c) (Cert.KernelIdeal.KFoldA.h0C m c) h wc :=
  combine_eq_layerA (Lnd m c) (Src m c) (Dn m c) (We m c) _ _ _ h wc
    (fun n k => Cert.KernelIdeal.KSegApply.segOf_apply h _ _ _ _ n k) (fun n => rfl)

theorem k1_eq : Cert.KernelIdeal.KFoldB.k1 m c = layerA (Lnd m c) (Src m c) (Dn m c) (We m c) (Cert.KernelIdeal.KFoldA.h0C m c) (Cert.KernelIdeal.KFoldA.h0C m c) (Cert.KernelIdeal.KFoldA.wc1C m c) :=
  comb_eq m c _ _
theorem k2_eq : Cert.KernelIdeal.KFoldB.k2 m c = layerA (Lnd m c) (Src m c) (Dn m c) (We m c) (Cert.KernelIdeal.KFoldA.h0C m c) (Cert.KernelIdeal.KFoldB.k1 m c) (Cert.KernelIdeal.KFoldA.wc2C m c) :=
  comb_eq m c _ _
theorem k3_eq : Cert.KernelIdeal.KFoldB.k3 m c = layerA (Lnd m c) (Src m c) (Dn m c) (We m c) (Cert.KernelIdeal.KFoldA.h0C m c) (Cert.KernelIdeal.KFoldB.k2 m c) (Cert.KernelIdeal.KFoldA.wc3C m c) :=
  comb_eq m c _ _

/-! ## The shared values, as the reference names them -/

theorem dinv_eq (x1 : (⟨Cert.ReferenceIdeal.S2x240000, .i32⟩ : BufTy).Contents (Elt Ideal)) (x2 : (⟨Cert.ReferenceIdeal.S240000x4, .f32⟩ : BufTy).Contents (Elt Ideal)) :
    Cert.KernelIdeal.KTerms.dinvOf (Cert.ReferenceIdeal.Read.val_main_v3 (F := Ideal) x1) (Cert.ReferenceIdeal.Read.val_main_v7 (F := Ideal) x2) = Cert.ReferenceIdeal.Read.val_main_v23 (F := Ideal) x1 x2 := rfl

theorem Dn_eq : Dn m c = fun n => Cert.ReferenceIdeal.Read.val_main_v23 (F := Ideal) (X1 m c) (X2 m c) (ix1 n) := by
  funext n
  unfold Dn Cert.KernelIdeal.KFoldA.dcolC Cert.KernelIdeal.KTerms.dcolOf
  rw [Cert.LibLayout.shapeCast_a_a1_apply]
  exact congrFun (dinv_eq (X1 m c) (X2 m c)) (ix1 n)

theorem h0C_eq : Cert.KernelIdeal.KFoldA.h0C m c = Cert.ReferenceIdeal.Read.val_main_v13 (F := Ideal) (X0 m c) (X3 m c) (X4 m c) :=
  Cert.BridgeH0.h0_eq (X0 m c) (X3 m c) (X4 m c)

/-- A layer of the reference over the shared values is arrangement B. -/
theorem ref_as_B (hprev : FVec Ideal Cert.ReferenceIdeal.S30000x512 .f32) (wcX : FVec Ideal Cert.ReferenceIdeal.S512x512 .f32) :
    Cert.ReferenceIdeal.RefTerms.refLayer (Cert.ReferenceIdeal.Read.val_main_v13 (F := Ideal) (X0 m c) (X3 m c) (X4 m c)) hprev
        (Cert.ReferenceIdeal.RefTerms.rowWOf (Cert.ReferenceIdeal.Read.val_main_v1 (F := Ideal) (X1 m c))) (Cert.ReferenceIdeal.RefTerms.colBOf (Cert.ReferenceIdeal.Read.val_main_v3 (F := Ideal) (X1 m c)))
        (Cert.ReferenceIdeal.Read.val_main_v39 (F := Ideal) (X1 m c) (X2 m c)) wcX
      = layerB (Lnd m c) (Src m c) (Dst m c) (Dn m c) (We m c) (Cert.KernelIdeal.KFoldA.h0C m c) hprev wcX := by
  rw [Cert.ReferenceIdeal.RefTerms.v39_eq, Cert.ReferenceIdeal.RefApply.refLayer_eq_layerB, Dn_eq m c, h0C_eq m c]
  rfl

/-! ## Real entries -/

section Real
variable (hx0 : ∀ i, IsReal (X0 m c i)) (hx2 : ∀ i, IsReal (X2 m c i)) (hx3 : ∀ i, IsReal (X3 m c i))
  (hx4 : ∀ i, IsReal (X4 m c i)) (hx5 : ∀ i, IsReal (X5 m c i)) (hx6 : ∀ i, IsReal (X6 m c i)) (hx7 : ∀ i, IsReal (X7 m c i))

include hx2 in
theorem isReal_We (e : Fin 240000) : IsReal (We m c e) := Cert.Reals.isReal_w (X2 m c) hx2 (ix1 e)

theorem isReal_Dn (n : Fin 30000) : IsReal (Dn m c n) := by
  unfold Dn Cert.KernelIdeal.KFoldA.dcolC Cert.KernelIdeal.KTerms.dcolOf
  rw [Cert.LibLayout.shapeCast_a_a1_apply]
  exact Cert.Reals.isReal_dinvOf _ _ n

include hx0 hx3 hx4 in
theorem isReal_h0 (i : NH.Idx) : IsReal (Cert.KernelIdeal.KFoldA.h0C m c i) :=
  isReal_lin _ _ _ (fun i => Cert.Reals.isReal_feat (X0 m c) hx0 i) (fun i => Cert.Reals.isReal_w1t (X3 m c) hx3 i)
    (fun i => by unfold Cert.KernelIdeal.KFoldA.browC shapeCast; exact hx4 _) i

/-- An edge landing on n has clamped destination n. -/
theorem dst_of_land (n : Fin 30000) (e : Fin 240000) (he : e ∈ Lnd m c n) : Dst m c e = n :=
  Cert.ReferenceIdeal.RefApply.src_of_land (Cert.KernelIdeal.KFoldA.colC m c) n e he

include hx0 hx2 hx3 hx4 hx5 hx6 hx7 in
/-- THE BRIDGE: the kernel's result is the reference's result of the same arguments. -/
theorem k3_eq_ref : Cert.KernelIdeal.KFoldB.k3 m c = Cert.ReferenceIdeal.Read.val_main_v114 (F := Ideal) (X0 m c) (X1 m c) (X2 m c) (X3 m c) (X4 m c) (X5 m c) (X6 m c) (X7 m c) := by
  have hD := isReal_Dn m c
  have hW := isReal_We m c hx2
  have hh0 := isReal_h0 m c hx0 hx3 hx4
  have hcl := dst_of_land m c
  -- layer 1
  have e1 : Cert.KernelIdeal.KFoldB.k1 m c = Cert.ReferenceIdeal.Read.val_main_v64 (F := Ideal) (X0 m c) (X1 m c) (X2 m c) (X3 m c) (X4 m c) (X5 m c) := by
    rw [k1_eq, layerA_eq_layerB (Lnd m c) (Src m c) (Dst m c) (Dn m c) (We m c) hcl hD hW _ _ hh0, Cert.ReferenceIdeal.RefTerms.v64_eq]
    refine ((ref_as_B m c _ (X5 m c)).trans ?_).symm
    rw [← h0C_eq m c]
    rfl
  have r1 : ∀ i, IsReal (Cert.KernelIdeal.KFoldB.k1 m c i) := fun i => by
    rw [k1_eq]; exact isReal_layerA _ _ _ _ hD hW _ _ hh0 hh0 _ (fun i => hx5 i) i
  -- layer 2
  have e2 : Cert.KernelIdeal.KFoldB.k2 m c = Cert.ReferenceIdeal.Read.val_main_v89 (F := Ideal) (X0 m c) (X1 m c) (X2 m c) (X3 m c) (X4 m c) (X5 m c) (X6 m c) := by
    rw [k2_eq, layerA_eq_layerB (Lnd m c) (Src m c) (Dst m c) (Dn m c) (We m c) hcl hD hW _ _ r1, Cert.ReferenceIdeal.RefTerms.v89_eq, ← e1]
    exact (ref_as_B m c _ (X6 m c)).symm
  have r2 : ∀ i, IsReal (Cert.KernelIdeal.KFoldB.k2 m c i) := fun i => by
    rw [k2_eq]; exact isReal_layerA _ _ _ _ hD hW _ _ hh0 r1 _ (fun i => hx6 i) i
  -- layer 3
  rw [k3_eq, layerA_eq_layerB (Lnd m c) (Src m c) (Dst m c) (Dn m c) (We m c) hcl hD hW _ _ r2, Cert.ReferenceIdeal.RefTerms.v114_eq, ← e2]
  exact (ref_as_B m c _ (X7 m c)).symm

end Real

end Cert.Bridge

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  From the precondition to real entries.

  The precondition is one truth value: the conjunction, over the seven floating-point arguments, of the test
  all(|x| < +infinity). If it is true, each of the seven tests is true, and a test that is true makes every entry of
  its array a real number (an extended real whose absolute value is below +infinity is neither infinity).
-/
import proofs.«150130_j30382598652516_2_alg».proof.Pre_finite_inputs
import proofs.«150130_j30382598652516_2_alg».proof.Proof.Gen.Pre_finite_inputs
import proofs.«150130_j30382598652516_2_alg».proof.Proof.LibFiniteEntry
import proofs.«150130_j30382598652516_2_alg».proof.Proof.LibRealSums
import Idealize.ShloMosaic.Lib.Affine

noncomputable section

namespace Cert.FiniteInputs

open Idealize.ShloMosaic Idealize.ShloMosaic.ValueIdx Cert.RealSums
open Cert.Pre_finite_inputs Cert.Pre_finite_inputs.Facts

variable [Cert.Pre_finite_inputs.Facts]

/-- If the precondition's one value is true, every entry of every floating-point argument is a real number. -/
theorem real_of_pre (x0 : FVec Ideal S30000x41 .f32) (x1 : IVec S2x240000 32) (x2 : FVec Ideal S240000x4 .f32)
    (x3 : FVec Ideal S512x38 .f32) (x4 : FVec Ideal S512 .f32) (x5 x6 x7 : FVec Ideal S512x512 .f32)
    (h : fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) := by
  have h0 := congrFun h ix0
  dsimp only [fn, fn_part1] at h0
  obtain ⟨h28, t7⟩ := IntOp.andi_eq_one.mp h0
  obtain ⟨h23, t6⟩ := IntOp.andi_eq_one.mp h28
  obtain ⟨h18, t5⟩ := IntOp.andi_eq_one.mp h23
  obtain ⟨h13, t4⟩ := IntOp.andi_eq_one.mp h18
  obtain ⟨h8, t3⟩ := IntOp.andi_eq_one.mp h13
  obtain ⟨t0, t2⟩ := IntOp.andi_eq_one.mp h8
  exact ⟨fun i => Cert.LibFiniteEntry.real_of_all x0 _ _ _ _ t0 i,
    fun i => Cert.LibFiniteEntry.real_of_all x2 _ _ _ _ t2 i,
    fun i => Cert.LibFiniteEntry.real_of_all x3 _ _ _ _ t3 i,
    fun i => Cert.LibFiniteEntry.real_of_all x4 _ _ _ _ t4 i,
    fun i => Cert.LibFiniteEntry.real_of_all x5 _ _ _ _ t5 i,
    fun i => Cert.LibFiniteEntry.real_of_all x6 _ _ _ _ t6 i,
    fun i => Cert.LibFiniteEntry.real_of_all x7 _ _ _ _ t7 i⟩

end Cert.FiniteInputs

end
-- ==== Proof.lean ====
/-
  A three-layer graph convolution with an initial residual, computed two ways.

  Inputs: node features x (30000 by 41, of which the first 38 are used), edges as a pair of index rows (source, destination;
  240000 edges), edge attributes (the last column, divided by a constant, is the edge weight w), a first-layer weight
  matrix W1 and bias b1, and three 512 by 512 layer matrices. Both programs compute h0 = x W1^T + b1, the weighted
  in-degree of every node, the node scale d = 1 / sqrt(degree) where the degree is positive and 0 elsewhere, and then
  three times h := max (0 * out + 1 * (out Wc)) 0 with out = 0.8 * agg(h) + 0.2 * h0.

  They differ in agg. The reference gathers the rows h[source e], multiplies each by the edge's normalised weight
  (d[source e] * w e) * d[destination e], and adds them up by destination. The kernel first scales every row of h by its
  own d, gathers, multiplies by w e alone, adds up by destination, and multiplies the sum for node n by d n afterwards
  (inside its pipelined region, which then mixes with h0, multiplies by Wc on the matrix unit and clips). An edge added
  into node n has destination n, so the two differ only by taking the common factor d n out of a sum. On the extended
  reals that step needs every term to be a real number; the precondition makes the floating-point arguments real, and
  the edge weights, node scales, h0 and each layer's result are then real as well (the node scales because the inverse
  square root of a positive extended real is a real number, +infinity included). The kernel's changes of float format are
  the identity in exact arithmetic, and its matrix products are the same sums the reference's dot_general takes.

  The modules: Spec, SpecLin, SpecEdges state the layer and the law; CombineBody, LinBody read the two kernel bodies at an
  entry; Reg0 to Reg3 turn blocks into whole arrays; KRun is the kernel's run with its result named; KTerms, KSegApply,
  KFoldA, KFoldB follow the buffers through the program; RefTerms, RefApply fold and read the reference; Reals, Finite
  give the real entries; BridgeH0 and Bridge join the two sides.
-/
import proofs.«150130_j30382598652516_2_alg».proof.Defs
import proofs.«150130_j30382598652516_2_alg».proof.Proof.Gen.Kernel
import proofs.«150130_j30382598652516_2_alg».proof.Proof.Gen.Kernel.Skeleton
import proofs.«150130_j30382598652516_2_alg».proof.Proof.Gen.Kernel.Launch
import proofs.«150130_j30382598652516_2_alg».proof.Proof.Gen.Kernel.Points
import proofs.«150130_j30382598652516_2_alg».proof.Proof.Gen.Kernel.Frame
import proofs.«150130_j30382598652516_2_alg».proof.Proof.Gen.KernelIdeal
import proofs.«150130_j30382598652516_2_alg».proof.Proof.Gen.KernelIdeal.Skeleton
import proofs.«150130_j30382598652516_2_alg».proof.Proof.Gen.KernelIdeal.Launch
import proofs.«150130_j30382598652516_2_alg».proof.Proof.Gen.KernelIdeal.Points
import proofs.«150130_j30382598652516_2_alg».proof.Proof.Gen.KernelIdeal.Frame
import proofs.«150130_j30382598652516_2_alg».proof.Proof.Gen.ReferenceIdeal
import proofs.«150130_j30382598652516_2_alg».proof.Proof.Gen.Pre_finite_inputs
import proofs.«150130_j30382598652516_2_alg».proof.Proof.Gen.ReferenceIdeal.Run
import proofs.«150130_j30382598652516_2_alg».proof.Proof.Gen.ReferenceIdeal.Read
import proofs.«150130_j30382598652516_2_alg».proof.Proof.KRun
import proofs.«150130_j30382598652516_2_alg».proof.Proof.Bridge
import proofs.«150130_j30382598652516_2_alg».proof.Proof.Finite
import Idealize.ShloMosaic.Adequacy
import Idealize.ShloMosaic.Init

set_option maxRecDepth 16384

noncomputable section

namespace Cert.Proof

open Idealize.ShloMosaic Idealize.SL.Sem

/-- The kernel as printed runs and leaves its arguments alone. -/
theorem frame_k : Cert.frame_Kernel := fun m ρ _ => Cert.Kernel.Gen.frame m ρ

/-- So does the kernel read in exact arithmetic. -/
theorem frame_ki : Cert.frame_KernelIdeal := fun m ρ _ => Cert.KernelIdeal.Gen.frame m ρ

/-- The reference runs and leaves its arguments alone: its value run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its exact reading. -/
theorem preserves : Cert.preserves_Kernel_KernelIdeal := trivial

/-- From arguments that agree, and are finite, both programs end with the same result: the kernel's result buffer ends
    at three nested layers in the kernel's arrangement, the reference's at three in its own, and the two are one
    function of real arguments. -/
theorem algebraic : Cert.algebraic_KernelIdeal_ReferenceIdeal := by
  intro m ρ m' ρ' hpre hagree
  refine ⟨fun c => Cert.KernelIdeal.KFoldB.k3 m c, ?_, ?_⟩
  · exact (θ_run Cert.KernelIdeal.defs _ _).mono
      (fun r h c => ⟨(h c).1.trans (Cert.KernelIdeal.KFoldB.value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨hx0, hx2, hx3, hx4, hx5, hx6, hx7⟩ := Cert.FiniteInputs.real_of_pre _ _ _ _ _ _ _ _ (hpre c)
    rw [Cert.ReferenceIdeal.Read.val_main_v114_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Bridge.k3_eq_ref m c hx0 hx2 hx3 hx4 hx5 hx6 hx7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
